-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S50000 : Shape := ⟨1, ![50000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S96 .f32) (main_arg7 : FVec F S96x2 .f32) (main_arg8 : FVec F S2 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x2 .f32 := Host.absf main_arg7
  let main_cst_8 : FVec F S_ .f32 := constant S_ .f32 0x7F800000#32
  let main_v25 : FVec F S96x2 .f32 := broadcastInDim S96x2 ![] bcast_S_S96x2 main_cst_8
  let main_v26 : IVec S96x2 1 := cmpf .olt main_v24 main_v25
  let main_c_9 : IVec S_ 1 := constantI S_ 1 1#1
  let main_v27 : IVec S_ 1 := (fun x v => Host.reduce IntOp.andi x v reducesTo_S96x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x96 .f32) (main_arg1 : IVec S2x800000 32) (main_arg2 : IVec S50000 32) (main_arg3 : FVec F S96x96 .f32) (main_arg4 : FVec F S96 .f32) (main_arg5 : FVec F S96x96 .f32) (main_arg6 : FVec F S96 .f32) (main_arg7 : FVec F S96x2 .f32) (main_arg8 : FVec F S2 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg3
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_arg8 main_v13 main_v16
-- ==== Kernel.lean ====
abbrev S50000x96 : Shape := ⟨2, ![50000, 96]⟩
abbrev S2x800000 : Shape := ⟨2, ![2, 800000]⟩
abbrev S50000 : Shape := ⟨1, ![50000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S5000x96 : Shape := ⟨2, ![5000, 96]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S5000x1 : Shape := ⟨2, ![5000, 1]⟩
abbrev S64x96 : Shape := ⟨2, ![64, 96]⟩
abbrev S64 : Shape := ⟨1, ![64]⟩
abbrev S64x1 : Shape := ⟨2, ![64, 1]⟩
abbrev S1x2 : Shape := ⟨2, ![1, 2]⟩
abbrev S64x2 : Shape := ⟨2, ![64, 2]⟩

abbrev nBuf : Space → Nat
  | .hbm => 159
  | .vmem => 32
  | .smem => 0
  | _ => 0

abbrev hbmTy0_0 (i : Nat) : BufTy := match i % 128 with
  | 0 => ⟨S50000x96, .f32⟩
  | 1 => ⟨S2x800000, .i32⟩
  | 2 => ⟨S50000, .i32⟩
  | 3 => ⟨S96x96, .f32⟩
  | 4 => ⟨S96, .f32⟩
  | 5 => ⟨S96x96, .f32⟩
  | 6 => ⟨S96, .f32⟩
  | 7 => ⟨S96x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S50000x96, .f32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S800000x1, .f32⟩
  | 51 => ⟨S_, .f32⟩
  | 52 => ⟨S50000x96, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x96, .f32⟩
  | 62 => ⟨S800000x96, .f32⟩
  | 63 => ⟨S800000x96, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S50000x96, .f32⟩
  | 73 => ⟨S50000, .f32⟩
  | 74 => ⟨S50000x1, .f32⟩
  | 75 => ⟨S1x96, .f32⟩
  | 76 => ⟨S50000x96, .f32⟩
  | 77 => ⟨S50000x96, .f32⟩
  | 78 => ⟨S_, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S_, .f32⟩
  | 89 => ⟨S800000, .f32⟩
  | 90 => ⟨S50000, .f32⟩
  | 91 => ⟨S_, .f32⟩
  | 92 => ⟨S50000, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S800000, .f32⟩
  | 114 => ⟨S800000x1, .f32⟩
  | 115 => ⟨S_, .f32⟩
  | 116 => ⟨S50000x96, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x96, .f32⟩
  | 126 => ⟨S800000x96, .f32⟩
  | 127 => ⟨S800000x96, .f32⟩
  | _ => ⟨S50000x96, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S50000x96, .f32⟩
  | 9 => ⟨S50000, .f32⟩
  | 10 => ⟨S50000x1, .f32⟩
  | 11 => ⟨S1x96, .f32⟩
  | 12 => ⟨S50000x96, .f32⟩
  | 13 => ⟨S_, .f32⟩
  | 14 => ⟨S64x96, .f32⟩
  | 15 => ⟨S50000x1, .i32⟩
  | 16 => ⟨S64x96, .f32⟩
  | 17 => ⟨S_, .f32⟩
  | 18 => ⟨S50000, .f32⟩
  | 19 => ⟨S_, .f32⟩
  | 20 => ⟨S64, .f32⟩
  | 21 => ⟨S50000x1, .i32⟩
  | 22 => ⟨S64, .f32⟩
  | 23 => ⟨S_, .f32⟩
  | 24 => ⟨S64, .f32⟩
  | 25 => ⟨S64, .f32⟩
  | 26 => ⟨S64x1, .f32⟩
  | 27 => ⟨S64x96, .f32⟩
  | 28 => ⟨S64x96, .f32⟩
  | 29 => ⟨S1x2, .f32⟩
  | 30 => ⟨S64x2, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x1, .f32⟩
  | .local _ .vmem, ⟨10, _⟩ => ⟨S5000x1, .f32⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S96x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S5000x1, .f32⟩
  | .local _ .vmem, ⟨24, _⟩ => ⟨S5000x1, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | .local _ .vmem, ⟨28, _⟩ => ⟨S64x96, .f32⟩
  | .local _ .vmem, ⟨29, _⟩ => ⟨S96x2, .f32⟩
  | .local _ .vmem, ⟨30, _⟩ => ⟨S1x2, .f32⟩
  | .local _ .vmem, ⟨31, _⟩ => ⟨S64x2, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_c_13 : Ref sig .tc := ⟨.hbm, 80, rfl⟩
abbrev main_v56 : Ref sig .tc := ⟨.hbm, 81, rfl⟩
abbrev main_v57 : Ref sig .tc := ⟨.hbm, 82, rfl⟩
abbrev main_c_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_17 : Ref sig .tc := ⟨.hbm, 95, rfl⟩
abbrev main_v67 : Ref sig .tc := ⟨.hbm, 96, rfl⟩
abbrev main_v68 : Ref sig .tc := ⟨.hbm, 97, rfl⟩
abbrev main_c_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_19 : Ref sig .tc := ⟨.hbm, 104, rfl⟩
abbrev main_v74 : Ref sig .tc := ⟨.hbm, 105, rfl⟩
abbrev main_v75 : Ref sig .tc := ⟨.hbm, 106, rfl⟩
abbrev main_c_20 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_21 : Ref sig .tc := ⟨.hbm, 115, rfl⟩
abbrev main_v83 : Ref sig .tc := ⟨.hbm, 116, rfl⟩
abbrev main_c_22 : Ref sig .tc := ⟨.hbm, 117, rfl⟩
abbrev main_v84 : Ref sig .tc := ⟨.hbm, 118, rfl⟩
abbrev main_v85 : Ref sig .tc := ⟨.hbm, 119, rfl⟩
abbrev main_c_23 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_24 : Ref sig .tc := ⟨.hbm, 128, rfl⟩
abbrev main_v93 : Ref sig .tc := ⟨.hbm, 129, rfl⟩
abbrev main_v94 : Ref sig .tc := ⟨.hbm, 130, rfl⟩
abbrev main_c_25 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_27 : Ref sig .tc := ⟨.hbm, 145, rfl⟩
abbrev main_v107 : Ref sig .tc := ⟨.hbm, 146, rfl⟩
abbrev main_cst_28 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_29 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x96 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S96x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S800000x1_S800000x96_0_1 : S800000x1.BroadcastsInDim S800000x96 (![0, 1] : Fin 2 → Fin S800000x96.rank)
  bcast_S50000_S50000x1_0 : S50000.BroadcastsInDim S50000x1 (![0] : Fin 1 → Fin S50000x1.rank)
  shapeCasts_S96_S1x96 : S96.ShapeCasts S1x96
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  bcast_S_S64x96 : S_.BroadcastsInDim S64x96 (![] : Fin 0 → Fin S64x96.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  shapeCasts_S2_S1x2 : S2.ShapeCasts S1x2
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S96x2_S96x2_0_0 : ∀ a, (![0, 0] : Fin 2 → Nat) a + S96x2.size a ≤ S96x2.size a
  h_S96x2 : 0 < S96x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  dot_S5000x96_S96x96_S5000x96_1_0_0_1_n_n_wf : DotDims.WF S5000x96 S96x96 S5000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  dot_S64x96_S96x2_S64x2_1_0_0_1_n_n_wf : DotDims.WF S64x96 S96x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x96.size a ≤ S50000x96.size a
  hwx3_4 : ∀ i : grid3.Coords, EltTy.bits .f32 = 32 ∨ (Rect.block (s := S50000x96) S5000x96.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x96.size a ≤ S64x96.size a
  hwx4_0 : ∀ i : grid4.Coords, EltTy.bits .f32 = 32 ∨ (Rect.block (s := S64x96) S64x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x2.size a ≤ S96x2.size a
  hwx4_1 : ∀ i : grid4.Coords, EltTy.bits .f32 = 32 ∨ (Rect.block (s := S96x2) S96x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x96_S96x2_S64x2_1_0_0_1_n_n : DotDims S64x96 S96x2 S64x2 where
  lhsContracting := [1]
  rhsContracting := [0]
  lhsNonContracting := [0]
  rhsNonContracting := [1]
  lhsBatch := []
  rhsBatch := []
  wf := dot_S64x96_S96x2_S64x2_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v99) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v101) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v102) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v103) S5000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v115) S64x96.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S96x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v117) S64x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S50000 : Shape := ⟨1, ![50000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S64x96 : Shape := ⟨2, ![64, 96]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 183
  | .vmem => 0
  | .smem => 0
  | _ => 0

abbrev hbmTy0_0 (i : Nat) : BufTy := match i % 128 with
  | 0 => ⟨S50000x96, .f32⟩
  | 1 => ⟨S2x800000, .i32⟩
  | 2 => ⟨S50000, .i32⟩
  | 3 => ⟨S96x96, .f32⟩
  | 4 => ⟨S96, .f32⟩
  | 5 => ⟨S96x96, .f32⟩
  | 6 => ⟨S96, .f32⟩
  | 7 => ⟨S96x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S50000x96, .f32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S800000x1, .f32⟩
  | 51 => ⟨S_, .f32⟩
  | 52 => ⟨S50000x96, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x96, .f32⟩
  | 62 => ⟨S800000x96, .f32⟩
  | 63 => ⟨S800000x96, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S50000x96, .f32⟩
  | 73 => ⟨S50000, .f32⟩
  | 74 => ⟨S50000x1, .f32⟩
  | 75 => ⟨S50000x96, .f32⟩
  | 76 => ⟨S50000x96, .f32⟩
  | 77 => ⟨S50000x96, .f32⟩
  | 78 => ⟨S1x96, .f32⟩
  | 79 => ⟨S50000x96, .f32⟩
  | 80 => ⟨S50000x96, .f32⟩
  | 81 => ⟨S_, .f32⟩
  | 82 => ⟨S50000x96, .f32⟩
  | 83 => ⟨S50000x96, .i1⟩
  | 84 => ⟨S_, .f32⟩
  | 85 => ⟨S50000x96, .f32⟩
  | 86 => ⟨S50000x96, .f32⟩
  | 87 => ⟨S50000x96, .f32⟩
  | 88 => ⟨S50000x96, .f32⟩
  | 89 => ⟨S_, .f32⟩
  | 90 => ⟨S50000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S_, .f32⟩
  | 100 => ⟨S800000, .f32⟩
  | 101 => ⟨S50000, .f32⟩
  | 102 => ⟨S_, .f32⟩
  | 103 => ⟨S50000, .f32⟩
  | 104 => ⟨S50000, .f32⟩
  | 105 => ⟨S50000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000, .f32⟩
  | 124 => ⟨S800000, .f32⟩
  | 125 => ⟨S800000x1, .f32⟩
  | 126 => ⟨S_, .f32⟩
  | 127 => ⟨S50000x96, .f32⟩
  | _ => ⟨S50000x96, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x96, .f32⟩
  | 9 => ⟨S800000x96, .f32⟩
  | 10 => ⟨S800000x96, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S50000x96, .f32⟩
  | 20 => ⟨S50000, .f32⟩
  | 21 => ⟨S50000x1, .f32⟩
  | 22 => ⟨S50000x96, .f32⟩
  | 23 => ⟨S50000x96, .f32⟩
  | 24 => ⟨S50000x96, .f32⟩
  | 25 => ⟨S1x96, .f32⟩
  | 26 => ⟨S50000x96, .f32⟩
  | 27 => ⟨S50000x96, .f32⟩
  | 28 => ⟨S_, .f32⟩
  | 29 => ⟨S50000x96, .f32⟩
  | 30 => ⟨S50000x96, .i1⟩
  | 31 => ⟨S_, .f32⟩
  | 32 => ⟨S50000x96, .f32⟩
  | 33 => ⟨S50000x96, .f32⟩
  | 34 => ⟨S50000x96, .f32⟩
  | 35 => ⟨S_, .f32⟩
  | 36 => ⟨S64x96, .f32⟩
  | 37 => ⟨S50000x1, .i32⟩
  | 38 => ⟨S64x96, .f32⟩
  | 39 => ⟨S_, .f32⟩
  | 40 => ⟨S50000, .f32⟩
  | 41 => ⟨S_, .f32⟩
  | 42 => ⟨S64, .f32⟩
  | 43 => ⟨S50000x1, .i32⟩
  | 44 => ⟨S64, .f32⟩
  | 45 => ⟨S_, .f32⟩
  | 46 => ⟨S64, .f32⟩
  | 47 => ⟨S64, .f32⟩
  | 48 => ⟨S64x1, .f32⟩
  | 49 => ⟨S64x96, .f32⟩
  | 50 => ⟨S64x96, .f32⟩
  | 51 => ⟨S64x2, .f32⟩
  | 52 => ⟨S1x2, .f32⟩
  | 53 => ⟨S64x2, .f32⟩
  | 54 => ⟨S64x2, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_c_15 : Ref sig .tc := ⟨.hbm, 91, rfl⟩
abbrev main_v65 : Ref sig .tc := ⟨.hbm, 92, rfl⟩
abbrev main_v66 : Ref sig .tc := ⟨.hbm, 93, rfl⟩
abbrev main_c_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_19 : Ref sig .tc := ⟨.hbm, 106, rfl⟩
abbrev main_v76 : Ref sig .tc := ⟨.hbm, 107, rfl⟩
abbrev main_v77 : Ref sig .tc := ⟨.hbm, 108, rfl⟩
abbrev main_c_20 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_21 : Ref sig .tc := ⟨.hbm, 115, rfl⟩
abbrev main_v83 : Ref sig .tc := ⟨.hbm, 116, rfl⟩
abbrev main_v84 : Ref sig .tc := ⟨.hbm, 117, rfl⟩
abbrev main_c_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_23 : Ref sig .tc := ⟨.hbm, 126, rfl⟩
abbrev main_v92 : Ref sig .tc := ⟨.hbm, 127, rfl⟩
abbrev main_c_24 : Ref sig .tc := ⟨.hbm, 128, rfl⟩
abbrev main_v93 : Ref sig .tc := ⟨.hbm, 129, rfl⟩
abbrev main_v94 : Ref sig .tc := ⟨.hbm, 130, rfl⟩
abbrev main_c_25 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_26 : Ref sig .tc := ⟨.hbm, 139, rfl⟩
abbrev main_v102 : Ref sig .tc := ⟨.hbm, 140, rfl⟩
abbrev main_v103 : Ref sig .tc := ⟨.hbm, 141, rfl⟩
abbrev main_c_27 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_28 : Ref sig .tc := ⟨.hbm, 156, rfl⟩
abbrev main_v117 : Ref sig .tc := ⟨.hbm, 157, rfl⟩
abbrev main_v118 : Ref sig .tc := ⟨.hbm, 158, rfl⟩
abbrev main_cst_29 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_30 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_31 : Ref sig .tc := ⟨.hbm, 167, rfl⟩
abbrev main_v125 : Ref sig .tc := ⟨.hbm, 168, rfl⟩
abbrev main_cst_32 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_33 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S800000x1_S800000x96_0_1 : S800000x1.BroadcastsInDim S800000x96 (![0, 1] : Fin 2 → Fin S800000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S64x96 : S_.BroadcastsInDim S64x96 (![] : Fin 0 → Fin S64x96.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x96_S96x96_S50000x96_1_0_0_1_n_n_wf : DotDims.WF S50000x96 S96x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  dot_S64x96_S96x2_S64x2_1_0_0_1_n_n_wf : DotDims.WF S64x96 S96x2 S64x2 [1] [0] [0] [1] [] []

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x96_S96x2_S64x2_1_0_0_1_n_n : DotDims S64x96 S96x2 S64x2 where
  lhsContracting := [1]
  rhsContracting := [0]
  lhsNonContracting := [0]
  rhsNonContracting := [1]
  lhsBatch := []
  rhsBatch := []
  wf := dot_S64x96_S96x2_S64x2_1_0_0_1_n_n_wf

class Facts : Prop extends Facts₀ where

variable [Facts]
-- ==== Proof.Spec.lean ====
/-
  The mathematics both programs compute, stated once over the idealized kernel's shapes.

  A two-layer graph convolution with self-loops, a mean pool per graph and a linear head.  With
  `src`, `dst` the two rows of the edge list (a negative node id wraps around by 50000),
  `deg v = 1 + #{e | dst e = v}` and `dinv = deg^(-1/2)`, one layer sends node features `h` to
    leaky (agg + (h·W) * dinv² + b),   agg v = Σ_{e : dst e = v} (h·W)[src e] * (dinv[src e] * dinv[dst e]),
  where `leaky v = v` for `v > 0` and `0.2 · v` otherwise.  The pooled features are the per-graph sums of
  the second layer's output divided by `max (node count) 1`, and the result is `pooled · Wc + bc`.

  The dense pieces are written index by index (`rowsTimes`, `layerOut`, `headOut`); the edge-indexed
  pieces (`degInv`, `edgeSum`, `meanPool`) are kept as the compositions of gather / scatter-add
  operations that both programs apply verbatim, and are never opened.
-/
import proofs.«104328_j84945863180627_1_alg».proof.Proof.Gen.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀ Cert.KernelIdeal.Facts

/-! ## The dense pieces, index by index -/

/-- Rows of `x` times the square matrix `w`: entry `(r, q)` is `Σ_k x[r, k] · w[k, q]`. -/
def rowsTimes (x : FVec Ideal S50000x96 .f32) (w : FVec Ideal S96x96 .f32) : FVec Ideal S50000x96 .f32 :=
  fun i => ∑ k : Fin 96, x (ix2 (i 0) k) * w (ix2 k (i 1))

/-- The leaky rectifier with slope `0.2` (the f32 nearest to it) on the non-positive side. -/
def leaky (v : Ideal .f32) : Ideal .f32 :=
  Scalar.select (FloatOps.cmpf .ogt v (Ideal.ofBits .f32 0x00000000#32)) v (Ideal.ofBits .f32 0x3E4CCCCD#32 * v)

/-- A layer's output from the edge sum `agg`, the projected features `hw`, the column `d2 = dinv²` and the
    bias row `b`: `leaky (agg + hw * d2 + b)`, the column constant along a row, the row along a column. -/
def layerOut (agg hw : FVec Ideal S50000x96 .f32) (d2 : FVec Ideal S50000x1 .f32) (b : FVec Ideal S1x96 .f32) :
    FVec Ideal S50000x96 .f32 :=
  fun i => leaky (agg i + hw i * d2 (ix2 (i 0) (0 : Fin 1)) + b (ix2 (0 : Fin 1) (i 1)))

/-- The linear head: entry `(g, q)` is `Σ_k p[g, k] · w[k, q] + b[q]`. -/
def headOut (p : FVec Ideal S64x96 .f32) (w : FVec Ideal S96x2 .f32) (b : FVec Ideal S1x2 .f32) : FVec Ideal S64x2 .f32 :=
  fun i => (∑ k : Fin 96, p (ix2 (i 0) k) * w (ix2 k (i 1))) + b (ix2 (0 : Fin 1) (i 1))

/-! ## The edge-indexed pieces, as the operations both programs apply -/

/-- Row 0 of the edge list: the source node of every edge. -/
def srcRow (e : IVec S2x800000 32) : IVec S800000 32 :=
  shapeCast _ (extractStridedSlice S1x800000 ![0, 0] e slices_S2x800000_S1x800000_0_0) shapeCasts_S1x800000_S800000

/-- Row 1 of the edge list: the destination node of every edge. -/
def dstRow (e : IVec S2x800000 32) : IVec S800000 32 :=
  shapeCast _ (extractStridedSlice S1x800000 ![1, 0] e slices_S2x800000_S1x800000_1_0) shapeCasts_S1x800000_S800000

/-- Node ids as a column of scatter / gather positions: a negative id `n` stands for `n + 50000`. -/
def wrapIds (n : IVec S800000 32) : IVec S800000x1 32 :=
  broadcastInDim S800000x1 ![0] bcast_S800000_S800000x1_0
    (select (cmpi .slt n (broadcastInDim S800000 ![] bcast_S_S800000 (constantI S_ 32 0#32)))
      (addi n (broadcastInDim S800000 ![] bcast_S_S800000 (constantI S_ 32 50000#32))) n)

/-- `deg^(-1/2)`, the degree counting one self-loop and one for every edge arriving at the node. -/
def degInv (dst : IVec S800000 32) : FVec Ideal S50000 .f32 :=
  Host.rsqrt (addf
    (Host.scatterAdd scatter_S50000_S800000x1_S800000_n_0_0_1
      (broadcastInDim S50000 ![] bcast_S_S50000 (constant (F := Ideal) S_ .f32 0x00000000#32))
      (wrapIds dst)
      (broadcastInDim S800000 ![] bcast_S_S800000 (constant (F := Ideal) S_ .f32 0x3F800000#32)))
    (broadcastInDim S50000 ![] bcast_S_S50000 (constant (F := Ideal) S_ .f32 0x3F800000#32)))

/-- The sum over the edges arriving at a node of the source's features weighted by `dinv[src] · dinv[dst]`. -/
def edgeSum (src dst : IVec S800000 32) (hw : FVec Ideal S50000x96 .f32) : FVec Ideal S50000x96 .f32 :=
  Host.scatterAdd scatter_S50000x96_S800000x1_S800000x96_1_0_0_1
    (broadcastInDim S50000x96 ![] bcast_S_S50000x96 (constant (F := Ideal) S_ .f32 0x00000000#32))
    (wrapIds dst)
    (mulf (Host.gather gather_S50000x96_S800000x1_S800000x96_1_0_n_n_0_1_196 hw (wrapIds src))
      (broadcastInDim S800000x96 ![0, 1] bcast_S800000x1_S800000x96_0_1
        (broadcastInDim S800000x1 ![0] bcast_S800000_S800000x1_0
          (mulf (Host.gather gather_S50000_S800000x1_S800000_n_0_n_n_0_1_1 (degInv dst) (wrapIds src))
            (Host.gather gather_S50000_S800000x1_S800000_n_0_n_n_0_1_1 (degInv dst) (wrapIds dst))))))

/-- `dinv²` as a column. -/
def degInvSq (dst : IVec S800000 32) : FVec Ideal S50000x1 .f32 :=
  broadcastInDim S50000x1 ![0] bcast_S50000_S50000x1_0 (mulf (degInv dst) (degInv dst))

/-- A bias vector as a one-row matrix. -/
def asRow96 (b : FVec Ideal S96 .f32) : FVec Ideal S1x96 .f32 := shapeCast _ b shapeCasts_S96_S1x96

/-- The head's bias vector as a one-row matrix. -/
def asRow2 (b : FVec Ideal S2 .f32) : FVec Ideal S1x2 .f32 := shapeCast _ b shapeCasts_S2_S1x2

/-- The mean of the node features over each graph: per-graph sums divided by `max (node count) 1`. -/
def meanPool (g : IVec S50000 32) (h : FVec Ideal S50000x96 .f32) : FVec Ideal S64x96 .f32 :=
  Host.divf
    (Host.scatterAdd scatter_S64x96_S50000x1_S50000x96_1_0_0_1
      (broadcastInDim S64x96 ![] bcast_S_S64x96 (constant (F := Ideal) S_ .f32 0x00000000#32))
      (broadcastInDim S50000x1 ![0] bcast_S50000_S50000x1_0 g) h)
    (broadcastInDim S64x96 ![0, 1] bcast_S64x1_S64x96_0_1
      (broadcastInDim S64x1 ![0] bcast_S64_S64x1_0
        (maximumf
          (Host.scatterAdd scatter_S64_S50000x1_S50000_n_0_0_1
            (broadcastInDim S64 ![] bcast_S_S64 (constant (F := Ideal) S_ .f32 0x00000000#32))
            (broadcastInDim S50000x1 ![0] bcast_S50000_S50000x1_0 g)
            (broadcastInDim S50000 ![] bcast_S_S50000 (constant (F := Ideal) S_ .f32 0x3F800000#32)))
          (broadcastInDim S64 ![] bcast_S_S64 (constant (F := Ideal) S_ .f32 0x3F800000#32)))))

/-! ## The whole computation -/

/-- One graph-convolution layer of node features `h` with weights `w`, bias `b` over the edge list `e`. -/
def layer (e : IVec S2x800000 32) (h : FVec Ideal S50000x96 .f32) (w : FVec Ideal S96x96 .f32) (b : FVec Ideal S96 .f32) :
    FVec Ideal S50000x96 .f32 :=
  layerOut (edgeSum (srcRow e) (dstRow e) (rowsTimes h w)) (rowsTimes h w) (degInvSq (dstRow e)) (asRow96 b)

/-- The network's output as one function of the nine arguments. -/
def net (x : FVec Ideal S50000x96 .f32) (e : IVec S2x800000 32) (g : IVec S50000 32)
    (w1 : FVec Ideal S96x96 .f32) (b1 : FVec Ideal S96 .f32) (w2 : FVec Ideal S96x96 .f32) (b2 : FVec Ideal S96 .f32)
    (wc : FVec Ideal S96x2 .f32) (bc : FVec Ideal S2 .f32) : FVec Ideal S64x2 .f32 :=
  headOut (meanPool g (layer e (layer e x w1 b1) w2 b2)) wc (asRow2 bc)

end Cert.Gcn

end
-- ==== Proof.KernelRun.lean ====
/-
  The idealized kernel's run with its result named.

  @main is nine segments: stretches of host operations and five pipelined kernel regions.  The
  buffer contents at each boundary are a fold from the launch memory (`Gen.W0 … Gen.W9`): a host
  stretch applies its operations, a region replaces its output array by what its write-backs leave.
  Every weakly fair execution terminates without a fault, and in every final state each unscoped
  buffer holds the last boundary's contents `Gen.W9`.  Read at the result buffer this names the
  result; read at the arguments it gives them back unchanged.
-/
import proofs.«104328_j84945863180627_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the nine argument arrays as launched. -/
theorem run_last : θ_run defs (onTc (τ := τ) (main (F := F))) ⟨m, fun _ => 0, ρ⟩ (fun r => ∀ c : Dev nD,
      r.2.mem ((c.tc : Thread nD τ).loc main_v117) = W9 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v117 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Hand

end
-- ==== Proof.HostSteps.lean ====
/-
  The host operations between the kernel regions, read at the buffers the regions and the result depend on.

  Each stretch of host operations is a straight line: a buffer it does not write keeps its contents, and a
  buffer it writes holds the composition of the operations that lead to it, applied to the contents the
  stretch found.  The two rows of the edge list, the edge sums, the dinv² columns, the bias rows and the
  mean pool are exactly the compositions named in the specification.
-/
import proofs.«104328_j84945863180627_1_alg».proof.Proof.Gen.KernelIdeal.Launch
import proofs.«104328_j84945863180627_1_alg».proof.Proof.Spec
import Idealize.ShloMosaic.Lib.StableHlo.Run

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.SL.Sem Idealize.ShloMosaic.StableHlo

/-- A buffer that no operation of the stretch writes keeps its contents. -/
macro "skip_host" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (U : Valuation τ sig (Elt Ideal))

/-! ## Before the first region: the two rows of the edge list -/

theorem host0_src : StableHlo.after hostOps0 U (Proc.devRef .tc main_v1) = Cert.Gcn.srcRow (U (Proc.devRef .tc main_arg1)) := by
  after_results; rfl

theorem host0_dst : StableHlo.after hostOps0 U (Proc.devRef .tc main_v3) = Cert.Gcn.dstRow (U (Proc.devRef .tc main_arg1)) := by
  after_results; rfl

/-! ## Between the first projection and the first combine -/

theorem host1_agg : StableHlo.after hostOps1 U (Proc.devRef .tc main_v49)
    = Cert.Gcn.edgeSum (U (Proc.devRef .tc main_v1)) (U (Proc.devRef .tc main_v3)) (U (Proc.devRef .tc main_v4)) := by
  after_results_simp; rfl

theorem host1_col : StableHlo.after hostOps1 U (Proc.devRef .tc main_v51) = Cert.Gcn.degInvSq (U (Proc.devRef .tc main_v3)) := by
  after_results_simp; rfl

theorem host1_row : StableHlo.after hostOps1 U (Proc.devRef .tc main_v52) = Cert.Gcn.asRow96 (U (Proc.devRef .tc main_arg4)) := by
  after_results_simp; rfl

/-! ## Between the second projection and the second combine -/

theorem host3_agg : StableHlo.after hostOps3 U (Proc.devRef .tc main_v99)
    = Cert.Gcn.edgeSum (U (Proc.devRef .tc main_v1)) (U (Proc.devRef .tc main_v3)) (U (Proc.devRef .tc main_v54)) := by
  after_results_simp; rfl

theorem host3_col : StableHlo.after hostOps3 U (Proc.devRef .tc main_v101) = Cert.Gcn.degInvSq (U (Proc.devRef .tc main_v3)) := by
  after_results_simp; rfl

theorem host3_row : StableHlo.after hostOps3 U (Proc.devRef .tc main_v102) = Cert.Gcn.asRow96 (U (Proc.devRef .tc main_arg6)) := by
  after_results_simp; rfl

/-! ## Before the head: the mean pool and the bias row -/

theorem host4_pool : StableHlo.after hostOps4 U (Proc.devRef .tc main_v115)
    = Cert.Gcn.meanPool (U (Proc.devRef .tc main_arg2)) (U (Proc.devRef .tc main_v103)) := by
  after_results_simp; rfl

theorem host4_row : StableHlo.after hostOps4 U (Proc.devRef .tc main_v116) = Cert.Gcn.asRow2 (U (Proc.devRef .tc main_arg8)) := by
  after_results_simp; rfl

end Cert.KernelIdeal.Hand

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.Region0.lean ====
/-
  What the first projection kernel leaves in its output array.

  The grid has ten points; point t stages rows 5000·t … 5000·t + 4999 of the left operand and the whole
  96×96 right operand, multiplies them into a zero accumulator (the operands' change of float format is
  the identity on the extended reals) and writes the 5000×96 product back to the same rows of the output.
  So entry (r, q) of the output is Σ_k L[r, k] · R[k, q] with r's block supplying the row: the ten
  blocks are the rows of one product, and together they cover the array.
-/
import proofs.«104328_j84945863180627_1_alg».proof.Proof.Gen.KernelIdeal.Frame
import proofs.«104328_j84945863180627_1_alg».proof.Proof.Spec
import proofs.«104328_j84945863180627_1_alg».proof.Proof.LibPlainDot
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff0 : (![0, 0] : Fin 2 → Nat) = fun _ => 0 := funext fun a => by fin_cases a <;> rfl

/-- The body's product at entry (p, q) of a block: the sum over k of the staged row times the staged column. -/
theorem pay0_apply (x : Vec Ideal S5000x96 .f32) (w : Vec Ideal S96x96 .f32) (y : S5000x96.Idx) :
    k0_pay1 x w y = ∑ k : Fin 96, x (ix2 (y 0) k) * w (ix2 k (y 1)) := by
  obtain ⟨p, q, rfl⟩ : ∃ (p : Fin 5000) (q : Fin 96), y = ix2 p q := ⟨y 0, y 1, eq_ix2 y⟩
  unfold k0_pay1
  exact (Ideal.matmul_constant_zero_apply (φ₁ := .bf16) (φ₂ := .bf16) dot_S5000x96_S96x96_S5000x96_1_0_0_1_n_n none _ _ (ix2 p q)).trans
    (Cert.LibPlainDot.sum_contr (n := 5000) (a := 96) (b := 96) _ _ p q)

/-- The printed index maps over the ten points: the left operand's and the output's blocks are block t of the
    rows, the right operand's is the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Every block of rows is some point's. -/
theorem onto0 : ∀ q0 : Fin 10, ∃ t : Fin cfg0.N, t.val = q0.val :=
  (by decide +kernel : ∀ q0 : Fin 10, ∃ t : Fin grid0.N, t.val = q0.val)

/-- Entry (p, k) of the left operand's block at point t is entry (5000·t + p, k) of the array. -/
theorem lhs0_apply (c : Dev nD) (t : Fin cfg0.N) (y : S5000x96.Idx) (i : S50000x96.Idx)
    (h0 : (i 0).val = 5000 * t.val + (y 0).val) (h1 : (i 1).val = (y 1).val) :
    (iblk0 V c 0 t : Vec Ideal S5000x96 .f32) y = (V c main_arg0 : S50000x96.Idx → Ideal .f32) i := by
  obtain ⟨e0, e1, -⟩ := idx0 t
  unfold iblk0
  rw [View.read_apply]
  show (V c main_arg0 : S50000x96.Idx → Ideal .f32) _ = (V c main_arg0 : S50000x96.Idx → Ideal .f32) _
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 96 + 1 * (y 1).val = (i 1).val; rw [e1, h1]; omega

/-- The right operand's block at every point is the whole matrix. -/
theorem rhs0_apply (c : Dev nD) (t : Fin cfg0.N) (y : S96x96.Idx) :
    (iblk0 V c 1 t : Vec Ideal S96x96 .f32) y = (V c main_arg3 : S96x96.Idx → Ideal .f32) y := by
  obtain ⟨-, -, e0, e1, -⟩ := idx0 t
  unfold iblk0
  rw [View.read_apply]
  show (V c main_arg3 : S96x96.Idx → Ideal .f32) _ = (V c main_arg3 : S96x96.Idx → Ideal .f32) _
  refine congrArg _ (funext fun a => Fin.ext ?_)
  match a with
  | ⟨0, _⟩ => show win0_1.index t (0 : Fin 2) * 96 + 1 * (y 0).val = (y 0).val; rw [e0]; omega
  | ⟨1, _⟩ => show win0_1.index t (1 : Fin 2) * 96 + 1 * (y 1).val = (y 1).val; rw [e1]; omega

/-- What point t writes back is block t of the rows of the whole product. -/
theorem flushed0_eq (c : Dev nD) (t : Fin cfg0.N) :
    (dat0 V c).flushed 2 t
      = ((cfg0.win 2).blk t).view.read (Elt Ideal) (Cert.Gcn.rowsTimes (V c main_arg0) (V c main_arg3)) := by
  show (cfg0.win 2).cut (grid0.coords t) ((dat0 V c).after 2 t) = _
  rw [after0_2]
  unfold out0_2
  rw [View.canon_unit_zero zeroOff0]
  simp only [View.ld_unit_zero (S := S5000x96) zeroOff0, View.ld_unit_zero (S := S96x96) zeroOff0]
  obtain ⟨-, -, -, -, e0, e1, -⟩ := idx0 t
  funext j
  refine (pay0_apply _ _ j).trans ?_
  show _ = Cert.Gcn.rowsTimes (V c main_arg0) (V c main_arg3) (((cfg0.win 2).blk t).view.emb j)
  unfold Cert.Gcn.rowsTimes
  have hr : ((((cfg0.win 2).blk t).view.emb j) 0).val = 5000 * t.val + (j 0).val := by
    show win0_2.index t (0 : Fin 2) * 5000 + 1 * (j 0).val = _; rw [e0]; omega
  have hc : ((((cfg0.win 2).blk t).view.emb j) 1).val = (j 1).val := by
    show win0_2.index t (1 : Fin 2) * 96 + 1 * (j 1).val = _; rw [e1]; omega
  refine Finset.sum_congr rfl fun k _ => ?_
  rw [lhs0_apply V c t (ix2 (j 0) k) (ix2 ((((cfg0.win 2).blk t).view.emb j) 0) k) hr rfl,
    rhs0_apply V c t (ix2 k (j 1))]
  refine congrArg _ (congrArg _ (funext fun a => Fin.ext ?_))
  match a with
  | ⟨0, _⟩ => rfl
  | ⟨1, _⟩ => exact hc.symm

/-- An index of the output is in point t's block iff each coordinate is in the block's range. -/
theorem mem_blk0 (t : Fin cfg0.N) (i : S50000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v4).slice (win0_2.rect t)).set ↔ _
  rw [View.set_slice_whole, Rect.mem_set_unit]
  exact Iff.rfl

/-- The output array after the region is the whole product of the two operands as the region found them. -/
theorem region0_value (c : Dev nD) :
    (dat0 V c).arrAt 2 cfg0.N = Cert.Gcn.rowsTimes (V c main_arg0) (V c main_arg3) :=
  (dat0 V c).arrAt_eq_of_cover 2 _ (fun t _ => flushed0_eq V c t) fun i => by
    have hi0 : (i 0).val < 50000 := (i 0).isLt
    have hi1 : (i 1).val < 96 := (i 1).isLt
    obtain ⟨t, ht⟩ := onto0 ⟨(i 0).val / 5000, by omega⟩
    obtain ⟨-, -, -, -, e0, e1, -⟩ := idx0 t
    have ht' : t.val = (i 0).val / 5000 := ht
    refine ⟨t, flush0_2 t, ?_⟩
    rw [mem_blk0]
    intro a
    match a with
    | ⟨0, _⟩ => show win0_2.index t (0 : Fin 2) * 5000 ≤ (i 0).val ∧ (i 0).val < win0_2.index t (0 : Fin 2) * 5000 + 5000; rw [e0]; omega
    | ⟨1, _⟩ => show win0_2.index t (1 : Fin 2) * 96 ≤ (i 1).val ∧ (i 1).val < win0_2.index t (1 : Fin 2) * 96 + 96; rw [e1]; omega

end Cert.KernelIdeal.Hand

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.Region1.lean ====
/-
  What the first layer's combine kernel leaves in its output array.

  The grid has ten points; point t stages rows 5000·t … 5000·t + 4999 of the edge sum, of the projected
  features and of the dinv² column, and the whole bias row, and stores leaky (agg + hw · d + b) — the column
  entry constant along its row, the bias entry along its column — to the same rows of the output.  Each
  entry of the output depends only on its own row and column, so the ten blocks are the rows of one
  array-wide function, and together they cover the array.
-/
import proofs.«104328_j84945863180627_1_alg».proof.Proof.Gen.KernelIdeal.Frame
import proofs.«104328_j84945863180627_1_alg».proof.Proof.Spec
import proofs.«104328_j84945863180627_1_alg».proof.Proof.LibKeepDims
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff1 : (![0, 0] : Fin 2 → Nat) = fun _ => 0 := funext fun a => by fin_cases a <;> rfl

/-- The body's value at entry y of a block, from the four staged blocks. -/
theorem pay1_apply (x0 x1 : Vec Ideal S5000x96 .f32) (x2 : Vec Ideal S5000x1 .f32) (x3 : Vec Ideal S1x96 .f32)
    (y : S5000x96.Idx) :
    k1_pay1 x0 x1 x2 x3 y
      = Cert.Gcn.leaky (x0 y + x1 y * x2 (ix2 (y 0) (0 : Fin 1)) + x3 (ix2 (0 : Fin 1) (y 1))) := by
  obtain ⟨p, q, rfl⟩ : ∃ (p : Fin 5000) (q : Fin 96), y = ix2 p q := ⟨y 0, y 1, eq_ix2 y⟩
  unfold k1_pay1 Cert.Gcn.leaky
  simp only [shapeCast_self]
  show Scalar.select (FloatOps.cmpf .ogt (x0 (ix2 p q) + x1 (ix2 p q) * broadcastTo S5000x96 x2 Facts₀.broadcasts_S5000x1_S5000x96 (ix2 p q)
        + broadcastTo S5000x96 x3 Facts₀.broadcasts_S1x96_S5000x96 (ix2 p q)) (Ideal.ofBits .f32 0x00000000#32))
      (x0 (ix2 p q) + x1 (ix2 p q) * broadcastTo S5000x96 x2 Facts₀.broadcasts_S5000x1_S5000x96 (ix2 p q)
        + broadcastTo S5000x96 x3 Facts₀.broadcasts_S1x96_S5000x96 (ix2 p q))
      (Ideal.ofBits .f32 0x3E4CCCCD#32 * (x0 (ix2 p q) + x1 (ix2 p q) * broadcastTo S5000x96 x2 Facts₀.broadcasts_S5000x1_S5000x96 (ix2 p q)
        + broadcastTo S5000x96 x3 Facts₀.broadcasts_S1x96_S5000x96 (ix2 p q))) = _
  rw [Cert.Lib.KeepDims.broadcastTo_a1_ab_apply x2 Facts₀.broadcasts_S5000x1_S5000x96 p q,
    broadcastTo_1b_ab_apply x3 Facts₀.broadcasts_S1x96_S5000x96 p q]

/-- The printed index maps over the ten points: the three row-blocked operands' and the output's blocks are
    block t of the rows, the bias row's is the whole row. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- Every block of rows is some point's. -/
theorem onto1 : ∀ q0 : Fin 10, ∃ t : Fin cfg1.N, t.val = q0.val :=
  (by decide +kernel : ∀ q0 : Fin 10, ∃ t : Fin grid1.N, t.val = q0.val)

/-- Entry y of the edge sum's block at point t is the array's entry 5000·t rows further down. -/
theorem agg1_apply (c : Dev nD) (t : Fin cfg1.N) (y : S5000x96.Idx) (i : S50000x96.Idx)
    (h0 : (i 0).val = 5000 * t.val + (y 0).val) (h1 : (i 1).val = (y 1).val) :
    (iblk1 V c 0 t : Vec Ideal S5000x96 .f32) y = (V c main_v49 : S50000x96.Idx → Ideal .f32) i := by
  obtain ⟨e0, e1, -⟩ := idx1 t
  unfold iblk1
  rw [View.read_apply]
  show (V c main_v49 : S50000x96.Idx → Ideal .f32) _ = (V c main_v49 : S50000x96.Idx → Ideal .f32) _
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 96 + 1 * (y 1).val = (i 1).val; rw [e1, h1]; omega

/-- The same for the projected features. -/
theorem hw1_apply (c : Dev nD) (t : Fin cfg1.N) (y : S5000x96.Idx) (i : S50000x96.Idx)
    (h0 : (i 0).val = 5000 * t.val + (y 0).val) (h1 : (i 1).val = (y 1).val) :
    (iblk1 V c 1 t : Vec Ideal S5000x96 .f32) y = (V c main_v4 : S50000x96.Idx → Ideal .f32) i := by
  obtain ⟨-, -, e0, e1, -⟩ := idx1 t
  unfold iblk1
  rw [View.read_apply]
  show (V c main_v4 : S50000x96.Idx → Ideal .f32) _ = (V c main_v4 : S50000x96.Idx → Ideal .f32) _
  refine congrArg _ (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 96 + 1 * (y 1).val = (i 1).val; rw [e1, h1]; omega

/-- The same for the dinv² column. -/
theorem col1_apply (c : Dev nD) (t : Fin cfg1.N) (y : S5000x1.Idx) (i : S50000x1.Idx)
    (h0 : (i 0).val = 5000 * t.val + (y 0).val) (h1 : (i 1).val = (y 1).val) :
    (iblk1 V c 2 t : Vec Ideal S5000x1 .f32) y = (V c main_v51 : S50000x1.Idx → Ideal .f32) i := by
  obtain ⟨-, -, -, -, e0, e1, -⟩ := idx1 t
  unfold iblk1
  rw [View.read_apply]
  show (V c main_v51 : S50000x1.Idx → Ideal .f32) _ = (V c main_v51 : S50000x1.Idx → Ideal .f32) _
  refine congrArg _ (funext fun a => Fin.ext ?_)
  match a with
  | ⟨0, _⟩ => show win1_2.index t (0 : Fin 2) * 5000 + 1 * (y 0).val = (i 0).val; rw [e0, h0]; omega
  | ⟨1, _⟩ => show win1_2.index t (1 : Fin 2) * 1 + 1 * (y 1).val = (i 1).val; rw [e1, h1]; omega

/-- The bias row's block at every point is the whole row. -/
theorem row1_apply (c : Dev nD) (t : Fin cfg1.N) (y : S1x96.Idx) :
    (iblk1 V c 3 t : Vec Ideal S1x96 .f32) y = (V c main_v52 : S1x96.Idx → Ideal .f32) y := by
  obtain ⟨-, -, -, -, -, -, e0, e1, -⟩ := idx1 t
  unfold iblk1
  rw [View.read_apply]
  show (V c main_v52 : S1x96.Idx → Ideal .f32) _ = (V c main_v52 : S1x96.Idx → Ideal .f32) _
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 96 + 1 * (y 1).val = (y 1).val; rw [e1]; omega

/-- What point t writes back is block t of the rows of the layer's output. -/
theorem flushed1_eq (c : Dev nD) (t : Fin cfg1.N) :
    (dat1 V c).flushed 4 t
      = ((cfg1.win 4).blk t).view.read (Elt Ideal)
          (Cert.Gcn.layerOut (V c main_v49) (V c main_v4) (V c main_v51) (V c main_v52)) := by
  show (cfg1.win 4).cut (grid1.coords t) ((dat1 V c).after 4 t) = _
  rw [after1_4]
  unfold out1_4
  rw [View.canon_unit_zero zeroOff1]
  simp only [View.ld_unit_zero (S := S5000x96) zeroOff1, View.ld_unit_zero (S := S5000x1) zeroOff1,
    View.ld_unit_zero (S := S1x96) zeroOff1]
  obtain ⟨-, -, -, -, -, -, -, -, e0, e1, -⟩ := idx1 t
  funext j
  refine (pay1_apply _ _ _ _ j).trans ?_
  show _ = Cert.Gcn.layerOut (V c main_v49) (V c main_v4) (V c main_v51) (V c main_v52) (((cfg1.win 4).blk t).view.emb j)
  unfold Cert.Gcn.layerOut
  have hr : ((((cfg1.win 4).blk t).view.emb j) 0).val = 5000 * t.val + (j 0).val := by
    show win1_4.index t (0 : Fin 2) * 5000 + 1 * (j 0).val = _; rw [e0]; omega
  have hc : ((((cfg1.win 4).blk t).view.emb j) 1).val = (j 1).val := by
    show win1_4.index t (1 : Fin 2) * 96 + 1 * (j 1).val = _; rw [e1]; omega
  rw [agg1_apply V c t j _ hr hc, hw1_apply V c t j _ hr hc,
    col1_apply V c t (ix2 (j 0) (0 : Fin 1)) (ix2 ((((cfg1.win 4).blk t).view.emb j) 0) (0 : Fin 1)) hr rfl,
    row1_apply V c t (ix2 (0 : Fin 1) (j 1))]
  refine congrArg Cert.Gcn.leaky (congrArg _ (congrArg _ (funext fun a => Fin.ext ?_)))
  match a with
  | ⟨0, _⟩ => rfl
  | ⟨1, _⟩ => exact hc.symm

/-- An index of the output is in point t's block iff each coordinate is in the block's range. -/
theorem mem_blk1 (t : Fin cfg1.N) (i : S50000x96.Idx) :
    i ∈ ((cfg1.win 4).blk t).view.set ↔ ∀ a : Fin 2, win1_4.index t a * S5000x96.size a ≤ (i a).val
      ∧ (i a).val < win1_4.index t a * S5000x96.size a + S5000x96.size a := by
  show i ∈ ((View.whole main_v53).slice (win1_4.rect t)).set ↔ _
  rw [View.set_slice_whole, Rect.mem_set_unit]
  exact Iff.rfl

/-- The output array after the region is the layer's output of the four operands as the region found them. -/
theorem region1_value (c : Dev nD) :
    (dat1 V c).arrAt 4 cfg1.N = Cert.Gcn.layerOut (V c main_v49) (V c main_v4) (V c main_v51) (V c main_v52) :=
  (dat1 V c).arrAt_eq_of_cover 4 _ (fun t _ => flushed1_eq V c t) fun i => by
    have hi0 : (i 0).val < 50000 := (i 0).isLt
    have hi1 : (i 1).val < 96 := (i 1).isLt
    obtain ⟨t, ht⟩ := onto1 ⟨(i 0).val / 5000, by omega⟩
    obtain ⟨-, -, -, -, -, -, -, -, e0, e1, -⟩ := idx1 t
    have ht' : t.val = (i 0).val / 5000 := ht
    refine ⟨t, flush1_4 t, ?_⟩
    rw [mem_blk1]
    intro a
    match a with
    | ⟨0, _⟩ => show win1_4.index t (0 : Fin 2) * 5000 ≤ (i 0).val ∧ (i 0).val < win1_4.index t (0 : Fin 2) * 5000 + 5000; rw [e0]; omega
    | ⟨1, _⟩ => show win1_4.index t (1 : Fin 2) * 96 ≤ (i 1).val ∧ (i 1).val < win1_4.index t (1 : Fin 2) * 96 + 96; rw [e1]; omega

end Cert.KernelIdeal.Hand

end
-- ==== Proof.Region2.lean ====
/-
  What the second projection kernel leaves in its output array.

  The grid has ten points; point t stages rows 5000·t … 5000·t + 4999 of the left operand and the whole
  96×96 right operand, multiplies them into a zero accumulator (the operands' change of float format is
  the identity on the extended reals) and writes the 5000×96 product back to the same rows of the output.
  So entry (r, q) of the output is Σ_k L[r, k] · R[k, q] with r's block supplying the row: the ten
  blocks are the rows of one product, and together they cover the array.
-/
import proofs.«104328_j84945863180627_1_alg».proof.Proof.Gen.KernelIdeal.Frame
import proofs.«104328_j84945863180627_1_alg».proof.Proof.Spec
import proofs.«104328_j84945863180627_1_alg».proof.Proof.LibPlainDot
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- The body's product at entry (p, q) of a block: the sum over k of the staged row times the staged column. -/
theorem pay2_apply (x : Vec Ideal S5000x96 .f32) (w : Vec Ideal S96x96 .f32) (y : S5000x96.Idx) :
    k2_pay1 x w y = ∑ k : Fin 96, x (ix2 (y 0) k) * w (ix2 k (y 1)) := by
  obtain ⟨p, q, rfl⟩ : ∃ (p : Fin 5000) (q : Fin 96), y = ix2 p q := ⟨y 0, y 1, eq_ix2 y⟩
  unfold k2_pay1
  simp only [shapeCast_self]
  exact (Ideal.matmul_constant_zero_apply (φ₁ := .bf16) (φ₂ := .bf16) dot_S5000x96_S96x96_S5000x96_1_0_0_1_n_n none _ _ (ix2 p q)).trans
    (Cert.LibPlainDot.sum_contr (n := 5000) (a := 96) (b := 96) _ _ p q)

/-- The printed index maps over the ten points: the left operand's and the output's blocks are block t of the
    rows, the right operand's is the whole matrix. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Every block of rows is some point's. -/
theorem onto2 : ∀ q0 : Fin 10, ∃ t : Fin cfg2.N, t.val = q0.val :=
  (by decide +kernel : ∀ q0 : Fin 10, ∃ t : Fin grid2.N, t.val = q0.val)

/-- Entry (p, k) of the left operand's block at point t is entry (5000·t + p, k) of the array. -/
theorem lhs2_apply (c : Dev nD) (t : Fin cfg2.N) (y : S5000x96.Idx) (i : S50000x96.Idx)
    (h0 : (i 0).val = 5000 * t.val + (y 0).val) (h1 : (i 1).val = (y 1).val) :
    (iblk2 V c 0 t : Vec Ideal S5000x96 .f32) y = (V c main_v53 : S50000x96.Idx → Ideal .f32) i := by
  obtain ⟨e0, e1, -⟩ := idx2 t
  unfold iblk2
  rw [View.read_apply]
  show (V c main_v53 : S50000x96.Idx → Ideal .f32) _ = (V c main_v53 : S50000x96.Idx → Ideal .f32) _
  refine congrArg _ (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 96 + 1 * (y 1).val = (i 1).val; rw [e1, h1]; omega

/-- The right operand's block at every point is the whole matrix. -/
theorem rhs2_apply (c : Dev nD) (t : Fin cfg2.N) (y : S96x96.Idx) :
    (iblk2 V c 1 t : Vec Ideal S96x96 .f32) y = (V c main_arg5 : S96x96.Idx → Ideal .f32) y := by
  obtain ⟨-, -, e0, e1, -⟩ := idx2 t
  unfold iblk2
  rw [View.read_apply]
  show (V c main_arg5 : S96x96.Idx → Ideal .f32) _ = (V c main_arg5 : S96x96.Idx → Ideal .f32) _
  refine congrArg _ (funext fun a => Fin.ext ?_)
  match a with
  | ⟨0, _⟩ => show win2_1.index t (0 : Fin 2) * 96 + 1 * (y 0).val = (y 0).val; rw [e0]; omega
  | ⟨1, _⟩ => show win2_1.index t (1 : Fin 2) * 96 + 1 * (y 1).val = (y 1).val; rw [e1]; omega

/-- What point t writes back is block t of the rows of the whole product. -/
theorem flushed2_eq (c : Dev nD) (t : Fin cfg2.N) :
    (dat2 V c).flushed 2 t
      = ((cfg2.win 2).blk t).view.read (Elt Ideal) (Cert.Gcn.rowsTimes (V c main_v53) (V c main_arg5)) := by
  show (cfg2.win 2).cut (grid2.coords t) ((dat2 V c).after 2 t) = _
  rw [after2_2]
  unfold out2_2
  rw [View.canon_unit_zero zeroOff2]
  simp only [View.ld_unit_zero (S := S5000x96) zeroOff2, View.ld_unit_zero (S := S96x96) zeroOff2]
  obtain ⟨-, -, -, -, e0, e1, -⟩ := idx2 t
  funext j
  refine (pay2_apply _ _ j).trans ?_
  show _ = Cert.Gcn.rowsTimes (V c main_v53) (V c main_arg5) (((cfg2.win 2).blk t).view.emb j)
  unfold Cert.Gcn.rowsTimes
  have hr : ((((cfg2.win 2).blk t).view.emb j) 0).val = 5000 * t.val + (j 0).val := by
    show win2_2.index t (0 : Fin 2) * 5000 + 1 * (j 0).val = _; rw [e0]; omega
  have hc : ((((cfg2.win 2).blk t).view.emb j) 1).val = (j 1).val := by
    show win2_2.index t (1 : Fin 2) * 96 + 1 * (j 1).val = _; rw [e1]; omega
  refine Finset.sum_congr rfl fun k _ => ?_
  rw [lhs2_apply V c t (ix2 (j 0) k) (ix2 ((((cfg2.win 2).blk t).view.emb j) 0) k) hr rfl,
    rhs2_apply V c t (ix2 k (j 1))]
  refine congrArg _ (congrArg _ (funext fun a => Fin.ext ?_))
  match a with
  | ⟨0, _⟩ => rfl
  | ⟨1, _⟩ => exact hc.symm

/-- An index of the output is in point t's block iff each coordinate is in the block's range. -/
theorem mem_blk2 (t : Fin cfg2.N) (i : S50000x96.Idx) :
    i ∈ ((cfg2.win 2).blk t).view.set ↔ ∀ a : Fin 2, win2_2.index t a * S5000x96.size a ≤ (i a).val
      ∧ (i a).val < win2_2.index t a * S5000x96.size a + S5000x96.size a := by
  show i ∈ ((View.whole main_v54).slice (win2_2.rect t)).set ↔ _
  rw [View.set_slice_whole, Rect.mem_set_unit]
  exact Iff.rfl

/-- The output array after the region is the whole product of the two operands as the region found them. -/
theorem region2_value (c : Dev nD) :
    (dat2 V c).arrAt 2 cfg2.N = Cert.Gcn.rowsTimes (V c main_v53) (V c main_arg5) :=
  (dat2 V c).arrAt_eq_of_cover 2 _ (fun t _ => flushed2_eq V c t) fun i => by
    have hi0 : (i 0).val < 50000 := (i 0).isLt
    have hi1 : (i 1).val < 96 := (i 1).isLt
    obtain ⟨t, ht⟩ := onto2 ⟨(i 0).val / 5000, by omega⟩
    obtain ⟨-, -, -, -, e0, e1, -⟩ := idx2 t
    have ht' : t.val = (i 0).val / 5000 := ht
    refine ⟨t, flush2_2 t, ?_⟩
    rw [mem_blk2]
    intro a
    match a with
    | ⟨0, _⟩ => show win2_2.index t (0 : Fin 2) * 5000 ≤ (i 0).val ∧ (i 0).val < win2_2.index t (0 : Fin 2) * 5000 + 5000; rw [e0]; omega
    | ⟨1, _⟩ => show win2_2.index t (1 : Fin 2) * 96 ≤ (i 1).val ∧ (i 1).val < win2_2.index t (1 : Fin 2) * 96 + 96; rw [e1]; omega

end Cert.KernelIdeal.Hand

end
-- ==== Proof.Region3.lean ====
/-
  What the second layer's combine kernel leaves in its output array.

  The grid has ten points; point t stages rows 5000·t … 5000·t + 4999 of the edge sum, of the projected
  features and of the dinv² column, and the whole bias row, and stores leaky (agg + hw · d + b) — the column
  entry constant along its row, the bias entry along its column — to the same rows of the output.  Each
  entry of the output depends only on its own row and column, so the ten blocks are the rows of one
  array-wide function, and together they cover the array.
-/
import proofs.«104328_j84945863180627_1_alg».proof.Proof.Gen.KernelIdeal.Frame
import proofs.«104328_j84945863180627_1_alg».proof.Proof.Spec
import proofs.«104328_j84945863180627_1_alg».proof.Proof.LibKeepDims
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff3 : (![0, 0] : Fin 2 → Nat) = fun _ => 0 := funext fun a => by fin_cases a <;> rfl

/-- The body's value at entry y of a block, from the four staged blocks. -/
theorem pay3_apply (x0 x1 : Vec Ideal S5000x96 .f32) (x2 : Vec Ideal S5000x1 .f32) (x3 : Vec Ideal S1x96 .f32)
    (y : S5000x96.Idx) :
    k3_pay1 x0 x1 x2 x3 y
      = Cert.Gcn.leaky (x0 y + x1 y * x2 (ix2 (y 0) (0 : Fin 1)) + x3 (ix2 (0 : Fin 1) (y 1))) := by
  obtain ⟨p, q, rfl⟩ : ∃ (p : Fin 5000) (q : Fin 96), y = ix2 p q := ⟨y 0, y 1, eq_ix2 y⟩
  unfold k3_pay1 Cert.Gcn.leaky
  simp only [shapeCast_self]
  show Scalar.select (FloatOps.cmpf .ogt (x0 (ix2 p q) + x1 (ix2 p q) * broadcastTo S5000x96 x2 Facts₀.broadcasts_S5000x1_S5000x96 (ix2 p q)
        + broadcastTo S5000x96 x3 Facts₀.broadcasts_S1x96_S5000x96 (ix2 p q)) (Ideal.ofBits .f32 0x00000000#32))
      (x0 (ix2 p q) + x1 (ix2 p q) * broadcastTo S5000x96 x2 Facts₀.broadcasts_S5000x1_S5000x96 (ix2 p q)
        + broadcastTo S5000x96 x3 Facts₀.broadcasts_S1x96_S5000x96 (ix2 p q))
      (Ideal.ofBits .f32 0x3E4CCCCD#32 * (x0 (ix2 p q) + x1 (ix2 p q) * broadcastTo S5000x96 x2 Facts₀.broadcasts_S5000x1_S5000x96 (ix2 p q)
        + broadcastTo S5000x96 x3 Facts₀.broadcasts_S1x96_S5000x96 (ix2 p q))) = _
  rw [Cert.Lib.KeepDims.broadcastTo_a1_ab_apply x2 Facts₀.broadcasts_S5000x1_S5000x96 p q,
    broadcastTo_1b_ab_apply x3 Facts₀.broadcasts_S1x96_S5000x96 p q]

/-- The printed index maps over the ten points: the three row-blocked operands' and the output's blocks are
    block t of the rows, the bias row's is the whole row. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 10 :=
  (by decide +kernel : ∀ t : Fin grid3.N, _)

/-- Every block of rows is some point's. -/
theorem onto3 : ∀ q0 : Fin 10, ∃ t : Fin cfg3.N, t.val = q0.val :=
  (by decide +kernel : ∀ q0 : Fin 10, ∃ t : Fin grid3.N, t.val = q0.val)

/-- Entry y of the edge sum's block at point t is the array's entry 5000·t rows further down. -/
theorem agg3_apply (c : Dev nD) (t : Fin cfg3.N) (y : S5000x96.Idx) (i : S50000x96.Idx)
    (h0 : (i 0).val = 5000 * t.val + (y 0).val) (h1 : (i 1).val = (y 1).val) :
    (iblk3 V c 0 t : Vec Ideal S5000x96 .f32) y = (V c main_v99 : S50000x96.Idx → Ideal .f32) i := by
  obtain ⟨e0, e1, -⟩ := idx3 t
  unfold iblk3
  rw [View.read_apply]
  show (V c main_v99 : S50000x96.Idx → Ideal .f32) _ = (V c main_v99 : S50000x96.Idx → Ideal .f32) _
  refine congrArg _ (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 96 + 1 * (y 1).val = (i 1).val; rw [e1, h1]; omega

/-- The same for the projected features. -/
theorem hw3_apply (c : Dev nD) (t : Fin cfg3.N) (y : S5000x96.Idx) (i : S50000x96.Idx)
    (h0 : (i 0).val = 5000 * t.val + (y 0).val) (h1 : (i 1).val = (y 1).val) :
    (iblk3 V c 1 t : Vec Ideal S5000x96 .f32) y = (V c main_v54 : S50000x96.Idx → Ideal .f32) i := by
  obtain ⟨-, -, e0, e1, -⟩ := idx3 t
  unfold iblk3
  rw [View.read_apply]
  show (V c main_v54 : S50000x96.Idx → Ideal .f32) _ = (V c main_v54 : S50000x96.Idx → Ideal .f32) _
  refine congrArg _ (funext fun a => Fin.ext ?_)
  match a with
  | ⟨0, _⟩ => show win3_1.index t (0 : Fin 2) * 5000 + 1 * (y 0).val = (i 0).val; rw [e0, h0]; omega
  | ⟨1, _⟩ => show win3_1.index t (1 : Fin 2) * 96 + 1 * (y 1).val = (i 1).val; rw [e1, h1]; omega

/-- The same for the dinv² column. -/
theorem col3_apply (c : Dev nD) (t : Fin cfg3.N) (y : S5000x1.Idx) (i : S50000x1.Idx)
    (h0 : (i 0).val = 5000 * t.val + (y 0).val) (h1 : (i 1).val = (y 1).val) :
    (iblk3 V c 2 t : Vec Ideal S5000x1 .f32) y = (V c main_v101 : S50000x1.Idx → Ideal .f32) i := by
  obtain ⟨-, -, -, -, e0, e1, -⟩ := idx3 t
  unfold iblk3
  rw [View.read_apply]
  show (V c main_v101 : S50000x1.Idx → Ideal .f32) _ = (V c main_v101 : S50000x1.Idx → Ideal .f32) _
  refine congrArg _ (funext fun a => Fin.ext ?_)
  match a with
  | ⟨0, _⟩ => show win3_2.index t (0 : Fin 2) * 5000 + 1 * (y 0).val = (i 0).val; rw [e0, h0]; omega
  | ⟨1, _⟩ => show win3_2.index t (1 : Fin 2) * 1 + 1 * (y 1).val = (i 1).val; rw [e1, h1]; omega

/-- The bias row's block at every point is the whole row. -/
theorem row3_apply (c : Dev nD) (t : Fin cfg3.N) (y : S1x96.Idx) :
    (iblk3 V c 3 t : Vec Ideal S1x96 .f32) y = (V c main_v102 : S1x96.Idx → Ideal .f32) y := by
  obtain ⟨-, -, -, -, -, -, e0, e1, -⟩ := idx3 t
  unfold iblk3
  rw [View.read_apply]
  show (V c main_v102 : S1x96.Idx → Ideal .f32) _ = (V c main_v102 : S1x96.Idx → Ideal .f32) _
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 96 + 1 * (y 1).val = (y 1).val; rw [e1]; omega

/-- What point t writes back is block t of the rows of the layer's output. -/
theorem flushed3_eq (c : Dev nD) (t : Fin cfg3.N) :
    (dat3 V c).flushed 4 t
      = ((cfg3.win 4).blk t).view.read (Elt Ideal)
          (Cert.Gcn.layerOut (V c main_v99) (V c main_v54) (V c main_v101) (V c main_v102)) := by
  show (cfg3.win 4).cut (grid3.coords t) ((dat3 V c).after 4 t) = _
  rw [after3_4]
  unfold out3_4
  rw [View.canon_unit_zero zeroOff3]
  simp only [View.ld_unit_zero (S := S5000x96) zeroOff3, View.ld_unit_zero (S := S5000x1) zeroOff3,
    View.ld_unit_zero (S := S1x96) zeroOff3]
  obtain ⟨-, -, -, -, -, -, -, -, e0, e1, -⟩ := idx3 t
  funext j
  refine (pay3_apply _ _ _ _ j).trans ?_
  show _ = Cert.Gcn.layerOut (V c main_v99) (V c main_v54) (V c main_v101) (V c main_v102) (((cfg3.win 4).blk t).view.emb j)
  unfold Cert.Gcn.layerOut
  have hr : ((((cfg3.win 4).blk t).view.emb j) 0).val = 5000 * t.val + (j 0).val := by
    show win3_4.index t (0 : Fin 2) * 5000 + 1 * (j 0).val = _; rw [e0]; omega
  have hc : ((((cfg3.win 4).blk t).view.emb j) 1).val = (j 1).val := by
    show win3_4.index t (1 : Fin 2) * 96 + 1 * (j 1).val = _; rw [e1]; omega
  rw [agg3_apply V c t j _ hr hc, hw3_apply V c t j _ hr hc,
    col3_apply V c t (ix2 (j 0) (0 : Fin 1)) (ix2 ((((cfg3.win 4).blk t).view.emb j) 0) (0 : Fin 1)) hr rfl,
    row3_apply V c t (ix2 (0 : Fin 1) (j 1))]
  refine congrArg Cert.Gcn.leaky (congrArg _ (congrArg _ (funext fun a => Fin.ext ?_)))
  match a with
  | ⟨0, _⟩ => rfl
  | ⟨1, _⟩ => exact hc.symm

/-- An index of the output is in point t's block iff each coordinate is in the block's range. -/
theorem mem_blk3 (t : Fin cfg3.N) (i : S50000x96.Idx) :
    i ∈ ((cfg3.win 4).blk t).view.set ↔ ∀ a : Fin 2, win3_4.index t a * S5000x96.size a ≤ (i a).val
      ∧ (i a).val < win3_4.index t a * S5000x96.size a + S5000x96.size a := by
  show i ∈ ((View.whole main_v103).slice (win3_4.rect t)).set ↔ _
  rw [View.set_slice_whole, Rect.mem_set_unit]
  exact Iff.rfl

/-- The output array after the region is the layer's output of the four operands as the region found them. -/
theorem region3_value (c : Dev nD) :
    (dat3 V c).arrAt 4 cfg3.N = Cert.Gcn.layerOut (V c main_v99) (V c main_v54) (V c main_v101) (V c main_v102) :=
  (dat3 V c).arrAt_eq_of_cover 4 _ (fun t _ => flushed3_eq V c t) fun i => by
    have hi0 : (i 0).val < 50000 := (i 0).isLt
    have hi1 : (i 1).val < 96 := (i 1).isLt
    obtain ⟨t, ht⟩ := onto3 ⟨(i 0).val / 5000, by omega⟩
    obtain ⟨-, -, -, -, -, -, -, -, e0, e1, -⟩ := idx3 t
    have ht' : t.val = (i 0).val / 5000 := ht
    refine ⟨t, flush3_4 t, ?_⟩
    rw [mem_blk3]
    intro a
    match a with
    | ⟨0, _⟩ => show win3_4.index t (0 : Fin 2) * 5000 ≤ (i 0).val ∧ (i 0).val < win3_4.index t (0 : Fin 2) * 5000 + 5000; rw [e0]; omega
    | ⟨1, _⟩ => show win3_4.index t (1 : Fin 2) * 96 ≤ (i 1).val ∧ (i 1).val < win3_4.index t (1 : Fin 2) * 96 + 96; rw [e1]; omega

end Cert.KernelIdeal.Hand

end
-- ==== Proof.Region4.lean ====
/-
  What the linear-head kernel leaves in its output array.

  The grid has one point: it stages the whole 64×96 pooled features, the whole 96×2 weights and the 1×2
  bias row, multiplies into a zero accumulator (the operands' change of float format is the identity on the
  extended reals), adds the bias row along the columns and writes the whole 64×2 result back.  The one
  block is the whole output array.
-/
import proofs.«104328_j84945863180627_1_alg».proof.Proof.Gen.KernelIdeal.Frame
import proofs.«104328_j84945863180627_1_alg».proof.Proof.Spec
import proofs.«104328_j84945863180627_1_alg».proof.Proof.LibPlainDot
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The body's value at entry y: the product's entry plus the bias of its column. -/
theorem pay4_apply (x : Vec Ideal S64x96 .f32) (w : Vec Ideal S96x2 .f32) (b : Vec Ideal S1x2 .f32) (y : S64x2.Idx) :
    k4_pay1 x w b y = (∑ k : Fin 96, x (ix2 (y 0) k) * w (ix2 k (y 1))) + b (ix2 (0 : Fin 1) (y 1)) := by
  obtain ⟨p, q, rfl⟩ : ∃ (p : Fin 64) (q : Fin 2), y = ix2 p q := ⟨y 0, y 1, eq_ix2 y⟩
  unfold k4_pay1
  simp only [shapeCast_self]
  refine congrArg₂ (· + ·) ?_ ?_
  · exact (Ideal.matmul_constant_zero_apply (φ₁ := .bf16) (φ₂ := .bf16) dot_S64x96_S96x2_S64x2_1_0_0_1_n_n none _ _ (ix2 p q)).trans
      (Cert.LibPlainDot.sum_contr (n := 64) (a := 96) (b := 2) _ _ p q)
  · exact broadcastTo_1b_ab_apply b _ p q

/-- The printed index maps at the one point: every block is the whole array. -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The grid has a point. -/
theorem point4 : ∃ t : Fin cfg4.N, t.val = 0 := (by decide +kernel : ∃ t : Fin grid4.N, t.val = 0)

/-- The pooled features' block is the whole array. -/
theorem pooled4_apply (c : Dev nD) (t : Fin cfg4.N) (y : S64x96.Idx) :
    (iblk4 V c 0 t : Vec Ideal S64x96 .f32) y = (V c main_v115 : S64x96.Idx → Ideal .f32) y := by
  obtain ⟨e0, e1, -⟩ := idx4 t
  unfold iblk4
  rw [View.read_apply]
  show (V c main_v115 : S64x96.Idx → Ideal .f32) _ = (V c main_v115 : S64x96.Idx → Ideal .f32) _
  refine congrArg _ (funext fun a => Fin.ext ?_)
  match a with
  | ⟨0, _⟩ => show win4_0.index t (0 : Fin 2) * 64 + 1 * (y 0).val = (y 0).val; rw [e0]; omega
  | ⟨1, _⟩ => show win4_0.index t (1 : Fin 2) * 96 + 1 * (y 1).val = (y 1).val; rw [e1]; omega

/-- The weights' block is the whole matrix. -/
theorem weights4_apply (c : Dev nD) (t : Fin cfg4.N) (y : S96x2.Idx) :
    (iblk4 V c 1 t : Vec Ideal S96x2 .f32) y = (V c main_arg7 : S96x2.Idx → Ideal .f32) y := by
  obtain ⟨-, -, e0, e1, -⟩ := idx4 t
  unfold iblk4
  rw [View.read_apply]
  show (V c main_arg7 : S96x2.Idx → Ideal .f32) _ = (V c main_arg7 : S96x2.Idx → Ideal .f32) _
  refine congrArg _ (funext fun a => Fin.ext ?_)
  match a with
  | ⟨0, _⟩ => show win4_1.index t (0 : Fin 2) * 96 + 1 * (y 0).val = (y 0).val; rw [e0]; omega
  | ⟨1, _⟩ => show win4_1.index t (1 : Fin 2) * 2 + 1 * (y 1).val = (y 1).val; rw [e1]; omega

/-- The bias row's block is the whole row. -/
theorem bias4_apply (c : Dev nD) (t : Fin cfg4.N) (y : S1x2.Idx) :
    (iblk4 V c 2 t : Vec Ideal S1x2 .f32) y = (V c main_v116 : S1x2.Idx → Ideal .f32) y := by
  obtain ⟨-, -, -, -, e0, e1, -⟩ := idx4 t
  unfold iblk4
  rw [View.read_apply]
  show (V c main_v116 : S1x2.Idx → Ideal .f32) _ = (V c main_v116 : S1x2.Idx → Ideal .f32) _
  refine congrArg _ (funext fun a => Fin.ext ?_)
  match a with
  | ⟨0, _⟩ => show win4_2.index t (0 : Fin 2) * 1 + 1 * (y 0).val = (y 0).val; rw [e0]; omega
  | ⟨1, _⟩ => show win4_2.index t (1 : Fin 2) * 2 + 1 * (y 1).val = (y 1).val; rw [e1]; omega

/-- What the point writes back is the head's output read through the whole-array block. -/
theorem flushed4_eq (c : Dev nD) (t : Fin cfg4.N) :
    (dat4 V c).flushed 3 t
      = ((cfg4.win 3).blk t).view.read (Elt Ideal) (Cert.Gcn.headOut (V c main_v115) (V c main_arg7) (V c main_v116)) := by
  show (cfg4.win 3).cut (grid4.coords t) ((dat4 V c).after 3 t) = _
  rw [after4_3]
  unfold out4_3
  rw [View.canon_unit_zero zeroOff4]
  simp only [View.ld_unit_zero (S := S64x96) zeroOff4, View.ld_unit_zero (S := S96x2) zeroOff4,
    View.ld_unit_zero (S := S1x2) zeroOff4]
  obtain ⟨-, -, -, -, -, -, e0, e1⟩ := idx4 t
  funext j
  refine (pay4_apply _ _ _ j).trans ?_
  show _ = Cert.Gcn.headOut (V c main_v115) (V c main_arg7) (V c main_v116) (((cfg4.win 3).blk t).view.emb j)
  unfold Cert.Gcn.headOut
  have hj : ((cfg4.win 3).blk t).view.emb j = j := funext fun a => Fin.ext (by
    match a with
    | ⟨0, _⟩ => show win4_3.index t (0 : Fin 2) * 64 + 1 * (j 0).val = (j 0).val; rw [e0]; omega
    | ⟨1, _⟩ => show win4_3.index t (1 : Fin 2) * 2 + 1 * (j 1).val = (j 1).val; rw [e1]; omega)
  rw [hj, bias4_apply V c t]
  refine congrArg₂ (· + ·) (Finset.sum_congr rfl fun k _ => ?_) rfl
  rw [pooled4_apply V c t, weights4_apply V c t]

/-- An index of the output is in the point's block iff each coordinate is in the block's range. -/
theorem mem_blk4 (t : Fin cfg4.N) (i : S64x2.Idx) :
    i ∈ ((cfg4.win 3).blk t).view.set ↔ ∀ a : Fin 2, win4_3.index t a * S64x2.size a ≤ (i a).val
      ∧ (i a).val < win4_3.index t a * S64x2.size a + S64x2.size a := by
  show i ∈ ((View.whole main_v117).slice (win4_3.rect t)).set ↔ _
  rw [View.set_slice_whole, Rect.mem_set_unit]
  exact Iff.rfl

/-- The output array after the region is the head's output of the three operands as the region found them. -/
theorem region4_value (c : Dev nD) :
    (dat4 V c).arrAt 3 cfg4.N = Cert.Gcn.headOut (V c main_v115) (V c main_arg7) (V c main_v116) :=
  (dat4 V c).arrAt_eq_of_cover 3 _ (fun t _ => flushed4_eq V c t) fun i => by
    have hi0 : (i 0).val < 64 := (i 0).isLt
    have hi1 : (i 1).val < 2 := (i 1).isLt
    obtain ⟨t, -⟩ := point4
    obtain ⟨-, -, -, -, -, -, e0, e1⟩ := idx4 t
    refine ⟨t, flush4_3 t, ?_⟩
    rw [mem_blk4]
    intro a
    match a with
    | ⟨0, _⟩ => show win4_3.index t (0 : Fin 2) * 64 ≤ (i 0).val ∧ (i 0).val < win4_3.index t (0 : Fin 2) * 64 + 64; rw [e0]; omega
    | ⟨1, _⟩ => show win4_3.index t (1 : Fin 2) * 2 ≤ (i 1).val ∧ (i 1).val < win4_3.index t (1 : Fin 2) * 2 + 2; rw [e1]; omega

end Cert.KernelIdeal.Hand

end
-- ==== Proof.Chain.lean ====
/-
  The result buffer's contents at the end of the idealized kernel's run, as the specification's function
  of the nine arguments.

  The boundary contents are followed from the launch memory through the nine segments.  A buffer keeps
  its contents through every segment that does not write it; the host stretches produce the edge rows,
  the edge sums, the dinv² columns, the bias rows and the mean pool; each region's output array holds the
  array-wide function of the arrays the region found (the projections, the layers' outputs, the head).
  Substituting upstream gives the two layers, the pool and the head composed: the network.
-/
import proofs.«104328_j84945863180627_1_alg».proof.Proof.Gen.KernelIdeal.Frame
import proofs.«104328_j84945863180627_1_alg».proof.Proof.Spec
import proofs.«104328_j84945863180627_1_alg».proof.Proof.HostSteps
import proofs.«104328_j84945863180627_1_alg».proof.Proof.Region0
import proofs.«104328_j84945863180627_1_alg».proof.Proof.Region1
import proofs.«104328_j84945863180627_1_alg».proof.Proof.Region2
import proofs.«104328_j84945863180627_1_alg».proof.Proof.Region3
import proofs.«104328_j84945863180627_1_alg».proof.Proof.Region4

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Buffers that are only read keep their contents up to where they are read -/

/-- The node features, when the first projection reads them. -/
theorem keep1_x : W1 m ρ c (Proc.devRef .tc main_arg0) = m ((c : Thread nD τ).loc main_arg0) :=
  ((by skip_host hostOps0 : W1 m ρ c (Proc.devRef .tc main_arg0) = W0 m ρ c (Proc.devRef .tc main_arg0))).trans rfl

/-- The first layer's weights, when the first projection reads them. -/
theorem keep1_w1 : W1 m ρ c (Proc.devRef .tc main_arg3) = m ((c : Thread nD τ).loc main_arg3) :=
  ((by skip_host hostOps0 : W1 m ρ c (Proc.devRef .tc main_arg3) = W0 m ρ c (Proc.devRef .tc main_arg3))).trans rfl

/-- The edges' sources through the first projection. -/
theorem keep2_src : W2 m ρ c (Proc.devRef .tc main_v1) = W1 m ρ c (Proc.devRef .tc main_v1) :=
  (W2_of_ne m ρ c main_v1 (by decide))

/-- The edges' destinations through the first projection. -/
theorem keep2_dst : W2 m ρ c (Proc.devRef .tc main_v3) = W1 m ρ c (Proc.devRef .tc main_v3) :=
  (W2_of_ne m ρ c main_v3 (by decide))

/-- The first layer's bias, when the host reshapes it. -/
theorem keep2_b1 : W2 m ρ c (Proc.devRef .tc main_arg4) = m ((c : Thread nD τ).loc main_arg4) :=
  ((W2_of_ne m ρ c main_arg4 (by decide)).trans ((by skip_host hostOps0 : W1 m ρ c (Proc.devRef .tc main_arg4) = W0 m ρ c (Proc.devRef .tc main_arg4)))).trans rfl

/-- The first projection's output through the host stretch that reads it. -/
theorem keep3_hw : W3 m ρ c (Proc.devRef .tc main_v4) = W2 m ρ c (Proc.devRef .tc main_v4) :=
  ((by skip_host hostOps1 : W3 m ρ c (Proc.devRef .tc main_v4) = W2 m ρ c (Proc.devRef .tc main_v4)))

/-- The second layer's weights, when the second projection reads them. -/
theorem keep4_w2 : W4 m ρ c (Proc.devRef .tc main_arg5) = m ((c : Thread nD τ).loc main_arg5) :=
  ((((W4_of_ne m ρ c main_arg5 (by decide)).trans ((by skip_host hostOps1 : W3 m ρ c (Proc.devRef .tc main_arg5) = W2 m ρ c (Proc.devRef .tc main_arg5)))).trans (W2_of_ne m ρ c main_arg5 (by decide))).trans ((by skip_host hostOps0 : W1 m ρ c (Proc.devRef .tc main_arg5) = W0 m ρ c (Proc.devRef .tc main_arg5)))).trans rfl

/-- The edges' sources up to the second layer's host stretch. -/
theorem keep5_src : W5 m ρ c (Proc.devRef .tc main_v1) = W1 m ρ c (Proc.devRef .tc main_v1) :=
  ((((W5_of_ne m ρ c main_v1 (by decide)).trans (W4_of_ne m ρ c main_v1 (by decide))).trans ((by skip_host hostOps1 : W3 m ρ c (Proc.devRef .tc main_v1) = W2 m ρ c (Proc.devRef .tc main_v1)))).trans (W2_of_ne m ρ c main_v1 (by decide)))

/-- The edges' destinations up to the second layer's host stretch. -/
theorem keep5_dst : W5 m ρ c (Proc.devRef .tc main_v3) = W1 m ρ c (Proc.devRef .tc main_v3) :=
  ((((W5_of_ne m ρ c main_v3 (by decide)).trans (W4_of_ne m ρ c main_v3 (by decide))).trans ((by skip_host hostOps1 : W3 m ρ c (Proc.devRef .tc main_v3) = W2 m ρ c (Proc.devRef .tc main_v3)))).trans (W2_of_ne m ρ c main_v3 (by decide)))

/-- The second layer's bias, when the host reshapes it. -/
theorem keep5_b2 : W5 m ρ c (Proc.devRef .tc main_arg6) = m ((c : Thread nD τ).loc main_arg6) :=
  (((((W5_of_ne m ρ c main_arg6 (by decide)).trans (W4_of_ne m ρ c main_arg6 (by decide))).trans ((by skip_host hostOps1 : W3 m ρ c (Proc.devRef .tc main_arg6) = W2 m ρ c (Proc.devRef .tc main_arg6)))).trans (W2_of_ne m ρ c main_arg6 (by decide))).trans ((by skip_host hostOps0 : W1 m ρ c (Proc.devRef .tc main_arg6) = W0 m ρ c (Proc.devRef .tc main_arg6)))).trans rfl

/-- The second projection's output through the host stretch that reads it. -/
theorem keep6_hw : W6 m ρ c (Proc.devRef .tc main_v54) = W5 m ρ c (Proc.devRef .tc main_v54) :=
  ((by skip_host hostOps3 : W6 m ρ c (Proc.devRef .tc main_v54) = W5 m ρ c (Proc.devRef .tc main_v54)))

/-- The graph ids, when the pool reads them. -/
theorem keep7_g : W7 m ρ c (Proc.devRef .tc main_arg2) = m ((c : Thread nD τ).loc main_arg2) :=
  (((((((W7_of_ne m ρ c main_arg2 (by decide)).trans ((by skip_host hostOps3 : W6 m ρ c (Proc.devRef .tc main_arg2) = W5 m ρ c (Proc.devRef .tc main_arg2)))).trans (W5_of_ne m ρ c main_arg2 (by decide))).trans (W4_of_ne m ρ c main_arg2 (by decide))).trans ((by skip_host hostOps1 : W3 m ρ c (Proc.devRef .tc main_arg2) = W2 m ρ c (Proc.devRef .tc main_arg2)))).trans (W2_of_ne m ρ c main_arg2 (by decide))).trans ((by skip_host hostOps0 : W1 m ρ c (Proc.devRef .tc main_arg2) = W0 m ρ c (Proc.devRef .tc main_arg2)))).trans rfl

/-- The head's bias, when the host reshapes it. -/
theorem keep7_bc : W7 m ρ c (Proc.devRef .tc main_arg8) = m ((c : Thread nD τ).loc main_arg8) :=
  (((((((W7_of_ne m ρ c main_arg8 (by decide)).trans ((by skip_host hostOps3 : W6 m ρ c (Proc.devRef .tc main_arg8) = W5 m ρ c (Proc.devRef .tc main_arg8)))).trans (W5_of_ne m ρ c main_arg8 (by decide))).trans (W4_of_ne m ρ c main_arg8 (by decide))).trans ((by skip_host hostOps1 : W3 m ρ c (Proc.devRef .tc main_arg8) = W2 m ρ c (Proc.devRef .tc main_arg8)))).trans (W2_of_ne m ρ c main_arg8 (by decide))).trans ((by skip_host hostOps0 : W1 m ρ c (Proc.devRef .tc main_arg8) = W0 m ρ c (Proc.devRef .tc main_arg8)))).trans rfl

/-- The head's weights, when the head reads them. -/
theorem keep8_wc : W8 m ρ c (Proc.devRef .tc main_arg7) = m ((c : Thread nD τ).loc main_arg7) :=
  (((((((((by skip_host hostOps4 : W8 m ρ c (Proc.devRef .tc main_arg7) = W7 m ρ c (Proc.devRef .tc main_arg7))).trans (W7_of_ne m ρ c main_arg7 (by decide))).trans ((by skip_host hostOps3 : W6 m ρ c (Proc.devRef .tc main_arg7) = W5 m ρ c (Proc.devRef .tc main_arg7)))).trans (W5_of_ne m ρ c main_arg7 (by decide))).trans (W4_of_ne m ρ c main_arg7 (by decide))).trans ((by skip_host hostOps1 : W3 m ρ c (Proc.devRef .tc main_arg7) = W2 m ρ c (Proc.devRef .tc main_arg7)))).trans (W2_of_ne m ρ c main_arg7 (by decide))).trans ((by skip_host hostOps0 : W1 m ρ c (Proc.devRef .tc main_arg7) = W0 m ρ c (Proc.devRef .tc main_arg7)))).trans rfl

/-! ## The values, segment by segment -/

/-- The edges' sources after the first host stretch. -/
theorem at1_src : W1 m ρ c (Proc.devRef .tc main_v1) = Cert.Gcn.srcRow (m ((c : Thread nD τ).loc main_arg1)) := host0_src (W0 m ρ c)

/-- The edges' destinations after the first host stretch. -/
theorem at1_dst : W1 m ρ c (Proc.devRef .tc main_v3) = Cert.Gcn.dstRow (m ((c : Thread nD τ).loc main_arg1)) := host0_dst (W0 m ρ c)

/-- The first projection: the node features times the first layer's weights. -/
theorem at2_hw : W2 m ρ c (Proc.devRef .tc main_v4) = Cert.Gcn.rowsTimes (m ((c : Thread nD τ).loc main_arg0)) (m ((c : Thread nD τ).loc main_arg3)) := by
  refine (W2_arr m ρ c 2).trans ((region0_value (V1 m ρ) c).trans ?_)
  show Cert.Gcn.rowsTimes (W1 m ρ c (Proc.devRef .tc main_arg0)) (W1 m ρ c (Proc.devRef .tc main_arg3)) = _
  rw [keep1_x, keep1_w1]

/-- The first layer's output. -/
theorem at4_h : W4 m ρ c (Proc.devRef .tc main_v53) = Cert.Gcn.layer (m ((c : Thread nD τ).loc main_arg1)) (m ((c : Thread nD τ).loc main_arg0)) (m ((c : Thread nD τ).loc main_arg3)) (m ((c : Thread nD τ).loc main_arg4)) := by
  refine (W4_arr m ρ c 4).trans ((region1_value (V3 m ρ) c).trans ?_)
  show Cert.Gcn.layerOut (W3 m ρ c (Proc.devRef .tc main_v49)) (W3 m ρ c (Proc.devRef .tc main_v4))
      (W3 m ρ c (Proc.devRef .tc main_v51)) (W3 m ρ c (Proc.devRef .tc main_v52)) = _
  rw [show W3 m ρ c (Proc.devRef .tc main_v49) = _ from host1_agg (W2 m ρ c),
    show W3 m ρ c (Proc.devRef .tc main_v51) = _ from host1_col (W2 m ρ c),
    show W3 m ρ c (Proc.devRef .tc main_v52) = _ from host1_row (W2 m ρ c),
    keep3_hw, keep2_src, keep2_dst, keep2_b1, at1_src, at1_dst, at2_hw]
  rfl

/-- The second projection: the first layer's output times the second layer's weights. -/
theorem at5_hw : W5 m ρ c (Proc.devRef .tc main_v54) = Cert.Gcn.rowsTimes (Cert.Gcn.layer (m ((c : Thread nD τ).loc main_arg1)) (m ((c : Thread nD τ).loc main_arg0)) (m ((c : Thread nD τ).loc main_arg3)) (m ((c : Thread nD τ).loc main_arg4))) (m ((c : Thread nD τ).loc main_arg5)) := by
  refine (W5_arr m ρ c 2).trans ((region2_value (V4 m ρ) c).trans ?_)
  show Cert.Gcn.rowsTimes (W4 m ρ c (Proc.devRef .tc main_v53)) (W4 m ρ c (Proc.devRef .tc main_arg5)) = _
  rw [at4_h, keep4_w2]

/-- The second layer's output. -/
theorem at7_h : W7 m ρ c (Proc.devRef .tc main_v103) = Cert.Gcn.layer (m ((c : Thread nD τ).loc main_arg1)) (Cert.Gcn.layer (m ((c : Thread nD τ).loc main_arg1)) (m ((c : Thread nD τ).loc main_arg0)) (m ((c : Thread nD τ).loc main_arg3)) (m ((c : Thread nD τ).loc main_arg4))) (m ((c : Thread nD τ).loc main_arg5)) (m ((c : Thread nD τ).loc main_arg6)) := by
  refine (W7_arr m ρ c 4).trans ((region3_value (V6 m ρ) c).trans ?_)
  show Cert.Gcn.layerOut (W6 m ρ c (Proc.devRef .tc main_v99)) (W6 m ρ c (Proc.devRef .tc main_v54))
      (W6 m ρ c (Proc.devRef .tc main_v101)) (W6 m ρ c (Proc.devRef .tc main_v102)) = _
  rw [show W6 m ρ c (Proc.devRef .tc main_v99) = _ from host3_agg (W5 m ρ c),
    show W6 m ρ c (Proc.devRef .tc main_v101) = _ from host3_col (W5 m ρ c),
    show W6 m ρ c (Proc.devRef .tc main_v102) = _ from host3_row (W5 m ρ c),
    keep6_hw, keep5_src, keep5_dst, keep5_b2, at1_src, at1_dst, at5_hw]
  rfl

/-- The result: the head of the mean pool of the second layer's output. -/
theorem at9_out : W9 m ρ c (Proc.devRef .tc main_v117) = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ((region4_value (V8 m ρ) c).trans ?_)
  show Cert.Gcn.headOut (W8 m ρ c (Proc.devRef .tc main_v115)) (W8 m ρ c (Proc.devRef .tc main_arg7))
      (W8 m ρ c (Proc.devRef .tc main_v116)) = _
  rw [show W8 m ρ c (Proc.devRef .tc main_v115) = _ from host4_pool (W7 m ρ c),
    show W8 m ρ c (Proc.devRef .tc main_v116) = _ from host4_row (W7 m ρ c),
    keep8_wc, keep7_g, keep7_bc, at7_h]
  rfl

end Cert.KernelIdeal.Hand

end
-- ==== Proof.RefChain.lean ====
/-
  The reference's gather / scatter-add stretches are the edge-indexed pieces of the specification.

  Between its dense steps the reference applies, operation for operation, the compositions the specification names:
  the two rows of the edge list, the wrap of a negative node id, the degree's inverse square root, the weighted sum over
  the arriving edges, the squared inverse root as a column, and the mean over each graph. Each stage below is the
  specification's composition applied to the same operands, so each equation holds by unfolding both sides' names; the
  gather and scatter-add operations themselves are never opened.
-/
import proofs.«104328_j84945863180627_1_alg».proof.Proof.Gen.ReferenceIdeal.Read
import proofs.«104328_j84945863180627_1_alg».proof.Proof.Spec

noncomputable section

namespace Cert.ReferenceIdeal.Hand

open Idealize.ShloMosaic Cert.ReferenceIdeal.Read Cert.Gcn

/-- The reshaped first row of the edge list is the specification's source row. -/
theorem src_eq (e : IVec S2x800000 32) : val_main_v1 (F := Ideal) e = srcRow e := rfl

/-- The reshaped second row of the edge list is the specification's destination row. -/
theorem dst_eq (e : IVec S2x800000 32) : val_main_v3 (F := Ideal) e = dstRow e := rfl

/-- The first layer's inverse square root of the degree. -/
theorem dinv1_eq (e : IVec S2x800000 32) : val_main_v16 (F := Ideal) e = degInv (dstRow e) := rfl

/-- The second layer recomputes the same inverse square root of the degree. -/
theorem dinv2_eq (e : IVec S2x800000 32) : val_main_v75 (F := Ideal) e = degInv (dstRow e) := rfl

/-- The first layer's sum over the arriving edges, of the projected input features. -/
theorem agg1_eq (x : FVec Ideal S50000x96 .f32) (e : IVec S2x800000 32) (w1 : FVec Ideal S96x96 .f32) :
    val_main_v49 (F := Ideal) x e w1 = edgeSum (srcRow e) (dstRow e) (val_main_v4 (F := Ideal) x w1) := rfl

/-- The first layer's squared inverse root of the degree, as a column. -/
theorem dsq1_eq (e : IVec S2x800000 32) : val_main_v51 (F := Ideal) e = degInvSq (dstRow e) := rfl

/-- The second layer's sum over the arriving edges, of the projected hidden features. -/
theorem agg2_eq (x : FVec Ideal S50000x96 .f32) (e : IVec S2x800000 32) (w1 : FVec Ideal S96x96 .f32)
    (b1 : FVec Ideal S96 .f32) (w2 : FVec Ideal S96x96 .f32) :
    val_main_v108 (F := Ideal) x e w1 b1 w2
      = edgeSum (srcRow e) (dstRow e) (val_main_v63 (F := Ideal) x e w1 b1 w2) := rfl

/-- The second layer's squared inverse root of the degree, as a column. -/
theorem dsq2_eq (e : IVec S2x800000 32) : val_main_v110 (F := Ideal) e = degInvSq (dstRow e) := rfl

/-- The pooled features: the mean of the second layer's output over each graph. -/
theorem pool_eq (x : FVec Ideal S50000x96 .f32) (e : IVec S2x800000 32) (g : IVec S50000 32)
    (w1 : FVec Ideal S96x96 .f32) (b1 : FVec Ideal S96 .f32) (w2 : FVec Ideal S96x96 .f32) (b2 : FVec Ideal S96 .f32) :
    val_main_v133 (F := Ideal) x e g w1 b1 w2 b2
      = meanPool g (val_main_v121 (F := Ideal) x e w1 b1 w2 b2) := rfl

end Cert.ReferenceIdeal.Hand

end
-- ==== Proof.RefDense.lean ====
/-
  The reference's dense steps, read index by index, are the specification's dense pieces.

  A projection is a matrix product: entry (r, q) is the sum over k of the left operand at (r, k) times the weights at
  (k, q). A layer's output adds, to the sum over the arriving edges, the projected features scaled by the squared
  inverse root of the degree (a column, constant along each row) and the bias (a row, constant along each column), and
  applies the leaky rectifier: the value itself where it is positive, 0.2 times it elsewhere. The head is one more
  matrix product plus its bias row. The reference spreads a bias vector over the rows by two broadcasts; the
  specification views the vector as a one-row matrix; both read entry q of the vector at column q.
-/
import proofs.«104328_j84945863180627_1_alg».proof.Proof.Gen.ReferenceIdeal.Read
import proofs.«104328_j84945863180627_1_alg».proof.Proof.Spec
import Idealize.ShloMosaic.Lib.ValueLayout

noncomputable section

open scoped BigOperators

namespace Cert.ReferenceIdeal.Hand

open Idealize.ShloMosaic Idealize.ShloMosaic.ValueIdx Cert.ReferenceIdeal.Read Cert.Gcn

/-! ## The composed index maps, by coordinates -/

/-- The left operand of a projection is read at (row of the entry, k) … -/
theorem lidx4 (i : S50000x96.Idx) (k : Fin 96) : lidx_main_v4 i k = ix2 (i 0) k :=
  funext fun a => Fin.ext (by match a with | ⟨0, _⟩ => rfl | ⟨1, _⟩ => rfl)

/-- … and the weights at (k, column of the entry). -/
theorem ridx4 (i : S50000x96.Idx) (k : Fin 96) : ridx_main_v4 i k = ix2 k (i 1) :=
  funext fun a => Fin.ext (by match a with | ⟨0, _⟩ => rfl | ⟨1, _⟩ => rfl)

/-- The head's left operand is read at (row of the entry, k) … -/
theorem lidx134 (i : S64x2.Idx) (k : Fin 96) : lidx_main_v134 i k = ix2 (i 0) k :=
  funext fun a => Fin.ext (by match a with | ⟨0, _⟩ => rfl | ⟨1, _⟩ => rfl)

/-- … and its weights at (k, column of the entry). -/
theorem ridx134 (i : S64x2.Idx) (k : Fin 96) : ridx_main_v134 i k = ix2 k (i 1) :=
  funext fun a => Fin.ext (by match a with | ⟨0, _⟩ => rfl | ⟨1, _⟩ => rfl)

/-- A column spread along the rows is read at (row of the entry, 0). -/
theorem cidx52 (i : S50000x96.Idx) : idx_main_v52 i = ix2 (i 0) (0 : Fin 1) :=
  funext fun a => Fin.ext (by match a with | ⟨0, _⟩ => rfl | ⟨1, _⟩ => rfl)

/-- The second layer's column is read the same way. -/
theorem cidx111 (i : S50000x96.Idx) : idx_main_v111 i = ix2 (i 0) (0 : Fin 1) :=
  funext fun a => Fin.ext (by match a with | ⟨0, _⟩ => rfl | ⟨1, _⟩ => rfl)

/-! ## A bias vector spread over the rows -/

/-- The first layer's bias at an entry is the bias, viewed as a one-row matrix, at the entry's column. -/
theorem bias1_apply (b : FVec Ideal S96 .f32) (i : S50000x96.Idx) :
    val_main_v56 (F := Ideal) b i = asRow96 b (ix2 (0 : Fin 1) (i 1)) := by
  have hi : idx_main_v55 (idx_main_v56 i) = ix1 (i 1) := funext fun a => match a with | ⟨0, _⟩ => rfl
  rw [val_main_v56_apply, val_main_v55_apply, hi]
  exact (shapeCast_a_1a_apply (a := 96) b Cert.KernelIdeal.Facts₀.shapeCasts_S96_S1x96 (0 : Fin 1) (i 1)).symm

/-- The second layer's bias likewise. -/
theorem bias2_apply (b : FVec Ideal S96 .f32) (i : S50000x96.Idx) :
    val_main_v115 (F := Ideal) b i = asRow96 b (ix2 (0 : Fin 1) (i 1)) := by
  have hi : idx_main_v114 (idx_main_v115 i) = ix1 (i 1) := funext fun a => match a with | ⟨0, _⟩ => rfl
  rw [val_main_v115_apply, val_main_v114_apply, hi]
  exact (shapeCast_a_1a_apply (a := 96) b Cert.KernelIdeal.Facts₀.shapeCasts_S96_S1x96 (0 : Fin 1) (i 1)).symm

/-- The head's bias likewise. -/
theorem biasc_apply (b : FVec Ideal S2 .f32) (i : S64x2.Idx) :
    val_main_v136 (F := Ideal) b i = asRow2 b (ix2 (0 : Fin 1) (i 1)) := by
  have hi : idx_main_v135 (idx_main_v136 i) = ix1 (i 1) := funext fun a => match a with | ⟨0, _⟩ => rfl
  rw [val_main_v136_apply, val_main_v135_apply, hi]
  exact (shapeCast_a_1a_apply (a := 2) b Cert.KernelIdeal.Facts₀.shapeCasts_S2_S1x2 (0 : Fin 1) (i 1)).symm

/-! ## The projections -/

/-- The first projection: the input features times the first weights. -/
theorem proj_eq (h : FVec Ideal S50000x96 .f32) (w : FVec Ideal S96x96 .f32) :
    val_main_v4 (F := Ideal) h w = rowsTimes h w := by
  funext i
  rw [val_main_v4_apply]
  simp only [lidx4, ridx4]
  rfl

/-- The second projection is the same product, of the first layer's output and the second weights. -/
theorem proj2_eq (x : FVec Ideal S50000x96 .f32) (e : IVec S2x800000 32) (w1 : FVec Ideal S96x96 .f32)
    (b1 : FVec Ideal S96 .f32) (w2 : FVec Ideal S96x96 .f32) :
    val_main_v63 (F := Ideal) x e w1 b1 w2 = rowsTimes (val_main_v62 (F := Ideal) x e w1 b1) w2 :=
  proj_eq (val_main_v62 (F := Ideal) x e w1 b1) w2

/-! ## The layers' outputs -/

/-- The first layer's output. -/
theorem out1_eq (x : FVec Ideal S50000x96 .f32) (e : IVec S2x800000 32) (w1 : FVec Ideal S96x96 .f32)
    (b1 : FVec Ideal S96 .f32) :
    val_main_v62 (F := Ideal) x e w1 b1
      = layerOut (val_main_v49 (F := Ideal) x e w1) (val_main_v4 (F := Ideal) x w1) (val_main_v51 (F := Ideal) e)
          (asRow96 b1) := by
  funext i
  rw [val_main_v62_apply, val_main_v61_apply, val_main_v59_apply, val_main_v57_apply, val_main_v54_apply,
    val_main_v53_apply, val_main_v52_apply, cidx52, bias1_apply, val_main_v58_apply, val_main_v60_apply,
    val_main_cst_12_apply, val_main_cst_13_apply]
  rfl

/-- The second layer's output. -/
theorem out2_eq (x : FVec Ideal S50000x96 .f32) (e : IVec S2x800000 32) (w1 : FVec Ideal S96x96 .f32)
    (b1 : FVec Ideal S96 .f32) (w2 : FVec Ideal S96x96 .f32) (b2 : FVec Ideal S96 .f32) :
    val_main_v121 (F := Ideal) x e w1 b1 w2 b2
      = layerOut (val_main_v108 (F := Ideal) x e w1 b1 w2) (val_main_v63 (F := Ideal) x e w1 b1 w2)
          (val_main_v110 (F := Ideal) e) (asRow96 b2) := by
  funext i
  rw [val_main_v121_apply, val_main_v120_apply, val_main_v118_apply, val_main_v116_apply, val_main_v113_apply,
    val_main_v112_apply, val_main_v111_apply, cidx111, bias2_apply, val_main_v117_apply, val_main_v119_apply,
    val_main_cst_28_apply, val_main_cst_29_apply]
  rfl

/-! ## The head -/

/-- The result: the pooled features times the head's weights, plus its bias. -/
theorem head_eq (x : FVec Ideal S50000x96 .f32) (e : IVec S2x800000 32) (g : IVec S50000 32)
    (w1 : FVec Ideal S96x96 .f32) (b1 : FVec Ideal S96 .f32) (w2 : FVec Ideal S96x96 .f32) (b2 : FVec Ideal S96 .f32)
    (wc : FVec Ideal S96x2 .f32) (bc : FVec Ideal S2 .f32) :
    val_main_v137 (F := Ideal) x e g w1 b1 w2 b2 wc bc
      = headOut (val_main_v133 (F := Ideal) x e g w1 b1 w2 b2) wc (asRow2 bc) := by
  funext i
  rw [val_main_v137_apply, val_main_v134_apply, biasc_apply]
  simp only [lidx134, ridx134]
  rfl

end Cert.ReferenceIdeal.Hand

end
-- ==== Proof.RefValue.lean ====
/-
  The reference computes the specification's network.

  The reference's result is its last stage as a function of the nine arguments. Going back from the head: the head of
  the pooled features; the pooled features are the mean over each graph of the second layer's output; a layer's output
  is the specification's, of the sum over the arriving edges and the squared inverse root of the degree, both the
  specification's compositions, and of the projection, the specification's matrix product. Substituting the stages one
  into the other from the first projection onward gives the specification's term.
-/
import proofs.«104328_j84945863180627_1_alg».proof.Proof.RefChain
import proofs.«104328_j84945863180627_1_alg».proof.Proof.RefDense

noncomputable section

namespace Cert.ReferenceIdeal.Hand

open Idealize.ShloMosaic Idealize.SL.Sem Cert.ReferenceIdeal.Read Cert.Gcn

/-- The first layer's output is the specification's layer of the input features. -/
theorem layer1_eq (x : FVec Ideal S50000x96 .f32) (e : IVec S2x800000 32) (w1 : FVec Ideal S96x96 .f32)
    (b1 : FVec Ideal S96 .f32) :
    val_main_v62 (F := Ideal) x e w1 b1 = layer e x w1 b1 := by
  rw [out1_eq, agg1_eq, dsq1_eq, proj_eq]
  rfl

/-- The second layer's output is the specification's layer of the first layer's output. -/
theorem layer2_eq (x : FVec Ideal S50000x96 .f32) (e : IVec S2x800000 32) (w1 : FVec Ideal S96x96 .f32)
    (b1 : FVec Ideal S96 .f32) (w2 : FVec Ideal S96x96 .f32) (b2 : FVec Ideal S96 .f32) :
    val_main_v121 (F := Ideal) x e w1 b1 w2 b2 = layer e (layer e x w1 b1) w2 b2 := by
  rw [out2_eq, agg2_eq, dsq2_eq, proj2_eq, layer1_eq]
  rfl

/-- The reference's last stage is the specification's network of the nine arguments. -/
theorem stage_eq (x : FVec Ideal S50000x96 .f32) (e : IVec S2x800000 32) (g : IVec S50000 32)
    (w1 : FVec Ideal S96x96 .f32) (b1 : FVec Ideal S96 .f32) (w2 : FVec Ideal S96x96 .f32) (b2 : FVec Ideal S96 .f32)
    (wc : FVec Ideal S96x2 .f32) (bc : FVec Ideal S2 .f32) :
    val_main_v137 (F := Ideal) x e g w1 b1 w2 b2 wc bc = net x e g w1 b1 w2 b2 wc bc := by
  rw [head_eq, pool_eq, layer2_eq]
  rfl

/-- The reference's result, as the run module names it, is the specification's network of @main's arguments. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v137 (F := Ideal) m c
      = Cert.Gcn.net (m ((c.tc : Thread _ _).loc Cert.ReferenceIdeal.main_arg0))
          (m ((c.tc : Thread _ _).loc Cert.ReferenceIdeal.main_arg1))
          (m ((c.tc : Thread _ _).loc Cert.ReferenceIdeal.main_arg2))
          (m ((c.tc : Thread _ _).loc Cert.ReferenceIdeal.main_arg3))
          (m ((c.tc : Thread _ _).loc Cert.ReferenceIdeal.main_arg4))
          (m ((c.tc : Thread _ _).loc Cert.ReferenceIdeal.main_arg5))
          (m ((c.tc : Thread _ _).loc Cert.ReferenceIdeal.main_arg6))
          (m ((c.tc : Thread _ _).loc Cert.ReferenceIdeal.main_arg7))
          (m ((c.tc : Thread _ _).loc Cert.ReferenceIdeal.main_arg8)) :=
  (val_main_v137_eq (F := Ideal) m c).trans (stage_eq _ _ _ _ _ _ _ _ _)

end Cert.ReferenceIdeal.Hand

end
-- ==== Proof.lean ====
/-
  A two-layer graph convolution with self-loops, a per-graph mean pool and a linear head: a program of five
  pipelined kernels among host gather / scatter-add operations against its array-library reference.

  At the ideal values both programs compute one function of the nine arguments (`Cert.Gcn.net`): the
  kernels' projections are matrix products into a zero accumulator whose operands' change of float format is
  the identity, so each of their row blocks is the rows of the reference's one matrix product; the combine
  kernels' blocks are the rows of leaky (agg + hw · dinv² + b) with the same association as the reference's
  sums; the head's one block is the product plus the bias row; and the degree, the edge sum and the mean pool
  are the same host operations applied in the same order by both programs, which are carried along unopened.
  No algebraic law beyond reading each operation at an index is needed, so the precondition is not used.

  The three frames: the two kernel programs' by their generated frame proofs, the reference's by its generated run
  with the result dropped.  The idealization rewrote nothing, so it is preserved trivially.
-/
import proofs.«104328_j84945863180627_1_alg».proof.Defs
import proofs.«104328_j84945863180627_1_alg».proof.Proof.Gen.Kernel
import proofs.«104328_j84945863180627_1_alg».proof.Proof.Gen.Kernel.Skeleton
import proofs.«104328_j84945863180627_1_alg».proof.Proof.Gen.Kernel.Launch
import proofs.«104328_j84945863180627_1_alg».proof.Proof.Gen.Kernel.Points
import proofs.«104328_j84945863180627_1_alg».proof.Proof.Gen.Kernel.Frame
import proofs.«104328_j84945863180627_1_alg».proof.Proof.Gen.KernelIdeal
import proofs.«104328_j84945863180627_1_alg».proof.Proof.Gen.KernelIdeal.Skeleton
import proofs.«104328_j84945863180627_1_alg».proof.Proof.Gen.KernelIdeal.Launch
import proofs.«104328_j84945863180627_1_alg».proof.Proof.Gen.KernelIdeal.Points
import proofs.«104328_j84945863180627_1_alg».proof.Proof.Gen.KernelIdeal.Frame
import proofs.«104328_j84945863180627_1_alg».proof.Proof.Gen.ReferenceIdeal
import proofs.«104328_j84945863180627_1_alg».proof.Proof.Gen.ReferenceIdeal.Run
import proofs.«104328_j84945863180627_1_alg».proof.Proof.Gen.ReferenceIdeal.Read
import proofs.«104328_j84945863180627_1_alg».proof.Proof.Gen.Pre_finite_inputs
import proofs.«104328_j84945863180627_1_alg».proof.Proof.Spec
import proofs.«104328_j84945863180627_1_alg».proof.Proof.KernelRun
import proofs.«104328_j84945863180627_1_alg».proof.Proof.Chain
import proofs.«104328_j84945863180627_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the network's function of the arguments, which agree. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Hand.at9_out m ρ c), (h c).2⟩)
      (Cert.KernelIdeal.Hand.run_last (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Hand.ref_value m' c, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
